-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x128 : Shape := ⟨2, ![10000, 128]⟩
abbrev S10000x1 : Shape := ⟨2, ![10000, 1]⟩
abbrev S1700000x128 : Shape := ⟨2, ![1700000, 128]⟩
abbrev S1x128 : Shape := ⟨2, ![1, 128]⟩
abbrev S10000 : Shape := ⟨1, ![10000]⟩

abbrev nBuf : Space → Nat
  | .hbm => 51
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S128x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x128.size a ≤ S100000x128.size a
  hwx1_9 : ∀ i : grid1.Coords, EltTy.bits .f32 = 32 ∨ (Rect.block (s := S100000x128) S10000x128.size (cc1_transform_9 i) (hinb1_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S10000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S128x128, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S_, .f32⟩
  | 90 => ⟨S100000x1, .f32⟩
  | 91 => ⟨S100000x1, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S100000x128, .f32⟩
  | 102 => ⟨S_, .f32⟩
  | 103 => ⟨S100000, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S100000x128, .f32⟩
  | 111 => ⟨S_, .f32⟩
  | 112 => ⟨S100000, .f32⟩
  | 113 => ⟨S100000x1, .f32⟩
  | 114 => ⟨S_, .f32⟩
  | 115 => ⟨S100000x1, .f32⟩
  | 116 => ⟨S100000x1, .f32⟩
  | 117 => ⟨S100000x128, .f32⟩
  | 118 => ⟨S100000x128, .f32⟩
  | 119 => ⟨S_, .f32⟩
  | 120 => ⟨S100000x1, .f32⟩
  | 121 => ⟨S100000x1, .f32⟩
  | 122 => ⟨S100000x1, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_18 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel program's run with its result named.

  The program is two grid-tiled regions among stretches of host operations. Its buffers' contents at each boundary
  are a fold from the launch memory: a host stretch applies its operations, a region leaves each of its arrays at what
  its write-backs leave and every other buffer as entered. Every weakly fair execution terminates with every unscoped
  buffer at the last boundary's contents; read at the result buffer this is what the second region's write-backs
  leave of its output array, and read at the arguments it is the launch memory.
-/
import proofs.«163821_j32736240730563_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_result : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

/-- The result buffer's last contents are what the second region's write-backs leave of its output array. -/
theorem W6_result (c : Dev nD) :
    W6 m ρ c (Proc.devRef .tc main_v33) = (dat1 (V5 m ρ) c).arrAt 9 cfg1.N := W6_arr m ρ c 9

end Cert.KernelIdeal.Hand

end
-- ==== Proof.Spec.lean ====
/-
  The mathematics of one graph-convolution layer with two layer normalisations, stated on the extended reals and
  free of any program.

  A node's row has 128 channels. The graph is given by, for every edge `e` (self-loops included), the row
  `src e` its message is read from, and for every node `n` the finite set `L n` of edges whose message lands
  on `n`; `dinv n` is the node's inverse square-root degree.

  The layer's linear part can be arranged in two ways:
  * scale, aggregate, then transform:  `∑ k, ((∑ e ∈ L n, x[src e, k] · dinv (src e)) · dinv n) · W[c, k]`
  * transform, then scale and aggregate: `∑ e ∈ L n, (∑ k, x[src e, k] · W[c, k]) · (dinv (src e) · dinv n)`
  On real numbers the two agree: both are the double sum over `(e, k)` of the same four factors, by
  distributivity and exchanging the two finite sums (`conv_real`). On the extended reals distributivity needs
  every factor finite; with `x`, `W` and `dinv` real-valued the identity transfers (`convK_eq_convR`).

  After the linear part both arrangements apply the same row-wise tail: bias, `max · 0`, a layer normalisation,
  the residual `x + ·`, and a second layer normalisation (`tail`).
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- The number of channels, 128, as the programs' float literal. -/
abbrev c128 : EReal := Ideal.ofBits .f32 0x43000000#32
/-- The variance offset of a layer normalisation, as the programs' float literal. -/
abbrev eps : EReal := Ideal.ofBits .f32 0x3727C5AC#32

/-- The mean of a row: the sum of its 128 entries divided by 128. -/
def mean (v : Fin 128 → EReal) : EReal := Ideal.div (∑ k : Fin 128, v k) c128

/-- One layer normalisation of a row `v` with scale `g` and shift `be`, at channel `c`:
    `(v c − μ) · (σ² + ε)^(−1/2) · g c + be c`, with `μ` the row's mean and `σ²` the mean of the squared deviations. -/
def lnorm (v g be : Fin 128 → EReal) (c : Fin 128) : EReal :=
  (v c - mean v) * Ideal.rsqrt (mean (fun k => (v k - mean v) * (v k - mean v)) + eps) * g c + be c

/-- The row-wise tail both arrangements share: `max · 0`, a layer normalisation, the residual, a second one. -/
def tail (h xr g1 be1 g2 be2 : Fin 128 → EReal) : Fin 128 → EReal :=
  lnorm (fun c => xr c + lnorm (fun k => max (h k) 0) g1 be1 c) g2 be2

section Conv

variable (src : Fin 1700000 → Fin 100000) (L : Fin 100000 → Finset (Fin 1700000)) (dinv : Fin 100000 → EReal)
variable (x : (⟨2, ![100000, 128]⟩ : Shape).Idx → EReal) (W : (⟨2, ![128, 128]⟩ : Shape).Idx → EReal)

/-- Scale, aggregate, then transform. -/
def convK (n : Fin 100000) (c : Fin 128) : EReal :=
  ∑ k : Fin 128, ((∑ e ∈ L n, x (ix2 (src e) k) * dinv (src e)) * dinv n) * W (ix2 c k)

/-- Transform, then scale and aggregate. -/
def convR (n : Fin 100000) (c : Fin 128) : EReal :=
  ∑ e ∈ L n, (∑ k : Fin 128, x (ix2 (src e) k) * W (ix2 c k)) * (dinv (src e) * dinv n)

end Conv

/-- The real identity: both arrangements are the double sum over edges and channels of the same four factors. -/
theorem conv_real {E K : Type*} [Fintype K] (S : Finset E) (X : E → K → ℝ) (D : E → ℝ) (dn : ℝ) (Wk : K → ℝ) :
    ∑ k : K, ((∑ e ∈ S, X e k * D e) * dn) * Wk k = ∑ e ∈ S, (∑ k : K, X e k * Wk k) * (D e * dn) := by
  simp only [Finset.sum_mul]
  rw [Finset.sum_comm]
  exact Finset.sum_congr rfl fun e _ => Finset.sum_congr rfl fun k _ => by ring

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With every factor finite the two arrangements agree on the extended reals. -/
theorem convK_eq_convR (src : Fin 1700000 → Fin 100000) (L : Fin 100000 → Finset (Fin 1700000))
    (dinv : Fin 100000 → EReal) (x : (⟨2, ![100000, 128]⟩ : Shape).Idx → EReal)
    (W : (⟨2, ![128, 128]⟩ : Shape).Idx → EReal)
    (hx : ∀ i, ∃ r : ℝ, x i = (r : EReal)) (hW : ∀ i, ∃ r : ℝ, W i = (r : EReal))
    (hd : ∀ n, ∃ r : ℝ, dinv n = (r : EReal)) (n : Fin 100000) (c : Fin 128) :
    convK src L dinv x W n c = convR src L dinv x W n c := by
  choose xr hxr using hx
  choose Wr hWr using hW
  choose dr hdr using hd
  unfold convK convR
  simp only [hxr, hWr, hdr, ← EReal.coe_mul, ← coe_sum]
  exact congrArg _ (conv_real (L n) (fun e k => xr (ix2 (src e) k)) (fun e => dr (src e)) (dr n) (fun k => Wr (ix2 c k)))

end Cert.Gcn

end
-- ==== Proof.KernelRows.lean ====
/-
  The two kernel bodies read at one element of a 10000-row block, on the extended reals.

  The first body multiplies each row of its block by that row's entry of a [10000,1] column. The second takes the block of aggregated rows,
  multiplies each row by its factor, multiplies the block by a 128×128 matrix, adds a bias row and clamps below at zero; it then normalises
  each row (subtract the row's mean, multiply by the reciprocal root of the row's variance plus an offset, scale and shift lane by lane),
  adds the block's own row, and normalises once more. Every step is lane-wise, a sum along a row, a broadcast of a column or of a row, or
  the matrix product; each is read at the index (p, c) — row p, lane c —, and the whole is the specification's row-wise tail.
-/
import proofs.«163821_j32736240730563_2_alg».proof.Proof.Gen.KernelIdeal.Frame
import proofs.«163821_j32736240730563_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Rows

open Cert.KernelIdeal Cert.KernelIdeal.Gen Idealize.ShloMosaic Idealize.ShloMosaic.ValueIdx

/-- The zero offsets of a whole-block access, however spelt. -/
theorem hz : (![0, 0] : Fin 2 → Nat) = fun _ => 0 := funext fun a => by fin_cases a <;> rfl

/-- A [10000,1] column broadcast along the lanes reads, at (p, c), the column's entry of row p. -/
theorem bcast_col {α : Type} (v : S10000x1.Idx → α) (h : S10000x1.Broadcasts S10000x128) (p : Fin 10000) (c : Fin 128) :
    broadcastTo S10000x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- A [1,128] row broadcast down the rows reads, at (p, c), the row's entry of lane c. -/
theorem bcast_row {α : Type} (v : S1x128.Idx → α) (h : S1x128.Broadcasts S10000x128) (p : Fin 10000) (c : Fin 128) :
    broadcastTo S10000x128 v h (ix2 p c) = v (ix2 (0 : Fin 1) c) :=
  broadcastTo_1b_ab_apply v h p c

/-- The lane sum of a block, kept as a [10000,1] column, reads at row p the sum of that row's 128 entries. -/
theorem rowsum_col (w : FVec Ideal S10000x128 .f32) (hr : S10000x128.Reduces [1] S10000) (hφ : FKind.Formats .f32)
    (hacc : (0x00000000#32 : BitVec 32) = 0x00000000#32) (hc : S10000.ShapeCasts S10000x1) (p : Fin 10000) :
    shapeCast S10000x1 (multiReduction (F := Ideal) .add [1] S10000 w 0x00000000#32 hr hφ hacc) hc (ix2 p (0 : Fin 1))
      = ∑ k : Fin 128, w (ix2 p k) := by
  refine (shapeCast_apply _ hc (ix2 p (0 : Fin 1)) (ix1 p) ?_).trans ?_
  · rw [Shape.rowMajor_val_one, Shape.rowMajor_val_two]
    show p.val = p.val * 1 + 0
    omega
  · refine (Ideal.multiReduction_add_single w 0x00000000#32 hr hφ hacc (ix1 p)).trans ?_
    exact Finset.sum_congr rfl fun k _ => congrArg w (funext fun a => by
      match a with
      | ⟨0, _⟩ => rfl
      | ⟨1, _⟩ => rfl)

/-- The block-times-matrix product into a zero accumulator reads, at (p, c), the sum over the 128 contracted lanes of row p of the left
    operand against column c of the right one. -/
theorem matmul_row (prec : Option ContractPrecision) (l : FVec Ideal S10000x128 .f32) (r : FVec Ideal S128x128 .f32) (p : Fin 10000) (c : Fin 128) :
    matmul dot_S10000x128_S128x128_S10000x128_1_0_0_1_n_n prec l r (constant (F := Ideal) S10000x128 .f32 0x00000000#32) (ix2 p c)
      = ∑ k : Fin 128, l (ix2 p k) * r (ix2 k c) := by
  refine (Ideal.matmul_constant_zero_apply dot_S10000x128_S128x128_S10000x128_1_0_0_1_n_n prec l r (ix2 p c)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p c) ((contrEquiv1 dot_S10000x128_S128x128_S10000x128_1_0_0_1_n_n 128 rfl rfl).symm k) = ix2 p k :=
    funext fun a => Fin.ext (by
      match a with
      | ⟨0, _⟩ =>
        show (dot_S10000x128_S128x128_S10000x128_1_0_0_1_n_n.lhsIdx (ix2 p c) _ 0).val = p.val
        unfold DotDims.lhsIdx
        rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
        rfl
      | ⟨1, _⟩ => exact (dot_S10000x128_S128x128_S10000x128_1_0_0_1_n_n.lhsIdx_val_of_single rfl (ix2 p c) _).trans hk)
  have er : dot_S10000x128_S128x128_S10000x128_1_0_0_1_n_n.rhsIdx (ix2 p c) ((contrEquiv1 dot_S10000x128_S128x128_S10000x128_1_0_0_1_n_n 128 rfl rfl).symm k) = ix2 k c :=
    funext fun a => Fin.ext (by
      match a with
      | ⟨0, _⟩ => exact (dot_S10000x128_S128x128_S10000x128_1_0_0_1_n_n.rhsIdx_val_of_single rfl (ix2 p c) _).trans hk
      | ⟨1, _⟩ =>
        show (dot_S10000x128_S128x128_S10000x128_1_0_0_1_n_n.rhsIdx (ix2 p c) _ 1).val = c.val
        unfold DotDims.rhsIdx
        rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
        rfl)
  rw [el, er]

/-- The scaling body at one element: the row's entry times the row's factor. -/
theorem scale_row (x0 : Vec Ideal S10000x128 .f32) (x1 : Vec Ideal S10000x1 .f32) (p : Fin 10000) (k : Fin 128) :
    Gen.out0_2 (F := Ideal) x0 x1 (ix2 p k) = x0 (ix2 p k) * x1 (ix2 p (0 : Fin 1)) := by
  unfold Gen.out0_2
  rw [View.canon_unit_zero hz]
  simp only [View.ld_unit_zero (S := S10000x128) hz, View.ld_unit_zero (S := S10000x1) hz]
  unfold Gen.k0_pay1
  rw [shapeCast_self]
  exact congrArg (x0 (ix2 p k) * ·) (bcast_col x1 _ p k)

/-- The elementwise reciprocal square root at an index. -/
theorem rsqrt_apply {s : Shape} {φ : FTy} (a : FVec Ideal s φ) (i : s.Idx) : rsqrt a i = Ideal.rsqrt (a i) := rfl

/-- The second shift row, broadcast down the block. -/
theorem pay3_apply (v37 : FVec Ideal S1x128 .f32) (p : Fin 10000) (c : Fin 128) :
    Gen.k1_pay3 (F := Ideal) v37 (ix2 p c) = v37 (ix2 (0 : Fin 1) c) := by
  unfold Gen.k1_pay3
  rw [shapeCast_self]
  exact bcast_row _ _ p c

/-- The last stage of the fused body at one element: the residual row plus the first normalised row, normalised again. -/
theorem pay1_apply (v36 v39 v41 : FVec Ideal S10000x128 .f32) (v61 v65 : FVec Ideal S1x128 .f32) (p : Fin 10000) (c : Fin 128) :
    Gen.k1_pay1 (F := Ideal) v36 v39 v41 v61 v65 (ix2 p c)
      = Cert.Gcn.lnorm (fun k => v41 (ix2 p k) + (v36 (ix2 p k) + v39 (ix2 p k)))
          (fun k => v61 (ix2 (0 : Fin 1) k)) (fun k => v65 (ix2 (0 : Fin 1) k)) c := by
  unfold Gen.k1_pay1 Cert.Gcn.lnorm Cert.Gcn.mean
  simp only [shapeCast_self, mulf_apply, addf_apply, subf_apply, divf_apply, rsqrt_apply, broadcast_apply, bcast_col, bcast_row]
  rw [rowsum_col, rowsum_col]
  simp only [mulf_apply, addf_apply, subf_apply, divf_apply, broadcast_apply, bcast_col]
  rw [rowsum_col]
  simp only [addf_apply]
  rfl

/-- The first stage of the fused body at one element: scale the aggregated row by the row's factor, transform it by the weight matrix, add the
    bias, clamp below at zero, then centre the row, divide by the root of its variance plus the offset, and scale lane-wise. -/
theorem pay2_apply (v0 : FVec Ideal S10000x128 .f32) (v2 : FVec Ideal S10000x1 .f32) (v6 : FVec Ideal S128x128 .f32)
    (v9 v33 : FVec Ideal S1x128 .f32) (p : Fin 10000) (c : Fin 128) :
    Gen.k1_pay2 (F := Ideal) v0 v2 v6 v9 v33 (ix2 p c)
      = ((fun c' => max ((∑ k : Fin 128, (v0 (ix2 p k) * v2 (ix2 p (0 : Fin 1))) * v6 (ix2 k c')) + v9 (ix2 (0 : Fin 1) c')) 0) c
            - Cert.Gcn.mean (fun c' => max ((∑ k : Fin 128, (v0 (ix2 p k) * v2 (ix2 p (0 : Fin 1))) * v6 (ix2 k c')) + v9 (ix2 (0 : Fin 1) c')) 0))
          * Ideal.rsqrt (Cert.Gcn.mean (fun j =>
              ((fun c' => max ((∑ k : Fin 128, (v0 (ix2 p k) * v2 (ix2 p (0 : Fin 1))) * v6 (ix2 k c')) + v9 (ix2 (0 : Fin 1) c')) 0) j
                - Cert.Gcn.mean (fun c' => max ((∑ k : Fin 128, (v0 (ix2 p k) * v2 (ix2 p (0 : Fin 1))) * v6 (ix2 k c')) + v9 (ix2 (0 : Fin 1) c')) 0))
              * ((fun c' => max ((∑ k : Fin 128, (v0 (ix2 p k) * v2 (ix2 p (0 : Fin 1))) * v6 (ix2 k c')) + v9 (ix2 (0 : Fin 1) c')) 0) j
                - Cert.Gcn.mean (fun c' => max ((∑ k : Fin 128, (v0 (ix2 p k) * v2 (ix2 p (0 : Fin 1))) * v6 (ix2 k c')) + v9 (ix2 (0 : Fin 1) c')) 0))) + Cert.Gcn.eps)
          * v33 (ix2 (0 : Fin 1) c) := by
  unfold Gen.k1_pay2 Cert.Gcn.mean
  simp only [shapeCast_self, mulf_apply, addf_apply, subf_apply, divf_apply, maximumf_apply, rsqrt_apply, broadcast_apply, bcast_col, bcast_row]
  rw [rowsum_col, rowsum_col]
  simp only [mulf_apply, addf_apply, subf_apply, divf_apply, maximumf_apply, broadcast_apply, bcast_col, bcast_row]
  rw [rowsum_col]
  simp only [mulf_apply, addf_apply, maximumf_apply, broadcast_apply, bcast_col, bcast_row, matmul_row]
  simp only [Ideal.ofBits_def, Ideal.ofBits_zero_f32]

/-- The fused body at one element of a block: the shared row-wise tail of the layer, applied to the scaled, transformed and biased aggregated
    row, with the block's own row as the residual. -/
theorem fused_row (x0 : Vec Ideal S10000x128 .f32) (x1 : Vec Ideal S10000x1 .f32) (x2 : Vec Ideal S10000x128 .f32)
    (x3 : Vec Ideal S128x128 .f32) (x4 x5 x6 x7 x8 : Vec Ideal S1x128 .f32) (p : Fin 10000) (c : Fin 128) :
    Gen.out1_9 (F := Ideal) x0 x1 x2 x3 x4 x5 x6 x7 x8 (ix2 p c)
      = Cert.Gcn.tail (fun c' => (∑ k : Fin 128, (x0 (ix2 p k) * x1 (ix2 p (0 : Fin 1))) * x3 (ix2 k c')) + x4 (ix2 (0 : Fin 1) c'))
          (fun c' => x2 (ix2 p c')) (fun c' => x5 (ix2 (0 : Fin 1) c')) (fun c' => x6 (ix2 (0 : Fin 1) c'))
          (fun c' => x7 (ix2 (0 : Fin 1) c')) (fun c' => x8 (ix2 (0 : Fin 1) c')) c := by
  unfold Gen.out1_9
  rw [View.canon_unit_zero hz]
  simp only [View.ld_unit_zero (S := S10000x128) hz, View.ld_unit_zero (S := S10000x1) hz, View.ld_unit_zero (S := S128x128) hz,
    View.ld_unit_zero (S := S1x128) hz]
  refine (pay1_apply _ _ _ _ _ p c).trans ?_
  unfold Cert.Gcn.tail
  refine congrArg (fun v => Cert.Gcn.lnorm v _ _ c) (funext fun c' => ?_)
  rw [pay2_apply, pay3_apply]
  rfl

end Cert.KernelIdeal.Rows

end
-- ==== Proof.KernelBlocks.lean ====
/-
  What the two grid-tiled regions leave of their output arrays, as whole-array functions of the arrays they find.

  Each region walks ten points; point `t` reads rows `10000·t … 10000·t + 9999` of its row-tiled inputs (the
  `[128,128]` weight and the five `[1,128]` parameter rows are read whole at every point) and writes the same rows of
  its output. So block `t` of the output is the row-wise function of the inputs restricted to those rows, the ten
  blocks tile the `100000` rows (row `r` is in block `r / 10000`), and the array ends holding that function.
-/
import proofs.«163821_j32736240730563_2_alg».proof.Proof.KernelRun
import proofs.«163821_j32736240730563_2_alg».proof.Proof.KernelRows
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The first region: every row of `x` scaled by the node's factor -/

/-- The scaled rows: entry `(n, k)` of `X` times the one entry of row `n` of the column `D`. -/
def scaled (X : S100000x128.Idx → EReal) (D : S100000x1.Idx → EReal) : S100000x128.Idx → EReal :=
  fun i => X i * D (ix2 (⟨(i 0).val, idx2_lt0 i⟩ : Fin 100000) (0 : Fin 1))

/-- The body's result at a general index of the block. -/
theorem scale_at (x0 : Vec Ideal S10000x128 .f32) (x1 : Vec Ideal S10000x1 .f32) (y : S10000x128.Idx) :
    Gen.out0_2 (F := Ideal) x0 x1 y = x0 y * x1 (ix2 (⟨(y 0).val, idx2_lt0 y⟩ : Fin 10000) (0 : Fin 1)) := by
  have h := Cert.KernelIdeal.Rows.scale_row x0 x1 (⟨(y 0).val, idx2_lt0 y⟩ : Fin 10000) (⟨(y 1).val, idx2_lt1 y⟩ : Fin 128)
  have e : y = ix2 (⟨(y 0).val, idx2_lt0 y⟩ : Fin 10000) (⟨(y 1).val, idx2_lt1 y⟩ : Fin 128) := eq_ix2 y
  rw [← e] at h
  exact h

/-- The printed index maps of the first region, decided over its ten points: every window's block index is
    `(t, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The arithmetic of one block element, free of the windows: if the three block embeddings agree on the row, the
    product of the two loaded entries is the scaled array at the embedded index. -/
theorem scaled_blk (X : S100000x128.Idx → EReal) (D : S100000x1.Idx → EReal)
    (e0 e2 : S10000x128.Idx → S100000x128.Idx) (e1 : S10000x1.Idx → S100000x1.Idx) (y : S10000x128.Idx)
    (h0 : e0 y = e2 y)
    (h1 : e1 (ix2 (⟨(y 0).val, idx2_lt0 y⟩ : Fin 10000) (0 : Fin 1)) = ix2 (⟨((e2 y) 0).val, idx2_lt0 _⟩ : Fin 100000) (0 : Fin 1)) :
    X (e0 y) * D (e1 (ix2 (⟨(y 0).val, idx2_lt0 y⟩ : Fin 10000) (0 : Fin 1))) = scaled X D (e2 y) := by
  unfold scaled; rw [h0, h1]

/-- What point `t` writes back is block `t` of the scaled rows of the arrays the region finds. -/
theorem flushed0_eq (c : Dev nD) (t : Fin cfg0.N) :
    (dat0 V c).flushed 2 t = ((cfg0.win 2).blk t).view.read (Elt Ideal) (scaled (V c main_arg0) (V c main_v15)) := by
  show (cfg0.win 2).cut (grid0.coords t) ((dat0 V c).after 2 t) = _
  rw [after0_2]
  obtain ⟨e0, e1, e2, e3, e4, e5⟩ := idx_facts0 t
  funext y
  refine (scale_at (iblk0 V c 0 t) (iblk0 V c 1 t) y).trans ?_
  have h0 : ((cfg0.win 0).blk t).view.emb y = ((cfg0.win 2).blk t).view.emb y := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * (y 1).val = win0_2.index t (1 : Fin 2) * 128 + 1 * (y 1).val; omega
  have h1 : ((cfg0.win 1).blk t).view.emb (ix2 (⟨(y 0).val, idx2_lt0 y⟩ : Fin 10000) (0 : Fin 1))
      = ix2 (⟨((((cfg0.win 2).blk t).view.emb y) 0).val, idx2_lt0 _⟩ : Fin 100000) (0 : Fin 1) := by
    funext a; apply Fin.ext
    match a with
    | ⟨0, _⟩ => show win0_1.index t (0 : Fin 2) * 10000 + 1 * (y 0).val = win0_2.index t (0 : Fin 2) * 10000 + 1 * (y 0).val; omega
    | ⟨1, _⟩ => show win0_1.index t (1 : Fin 2) * 1 + 1 * 0 = 0; omega
  exact scaled_blk (V c main_arg0) (V c main_v15) (((cfg0.win 0).blk t).view.emb) (((cfg0.win 2).blk t).view.emb)
    (((cfg0.win 1).blk t).view.emb) y h0 h1

/-- Every block of the output is some point's. -/
theorem idx_onto0 : ∀ q : Fin 10, ∃ t : Fin cfg0.N, win0_2.index t = ![q.val, 0] :=
  (by decide +kernel : ∀ q : Fin 10, ∃ t : Fin grid0.N, win0_2.index t = ![q.val, 0])

/-- The ten blocks tile the output: row `r` is in block `r / 10000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  show i ∈ ((View.whole main_v16).slice (win0_2.rect t)).set
  rw [View.set_slice_whole, Rect.mem_set_unit]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The first region's output array ends holding the scaled rows. -/
theorem final0 (c : Dev nD) : (dat0 V c).arrAt 2 cfg0.N = scaled (V c main_arg0) (V c main_v15) :=
  (dat0 V c).arrAt_eq_of_cover 2 (scaled (V c main_arg0) (V c main_v15)) (fun t _ => flushed0_eq V c t) cover0

/-! ## The second region: scale by the node's factor, transform, add the bias, and the row-wise tail -/

/-- The fused rows as one function of the arrays the region finds: at `(n, c)` the row-wise tail of
    `∑ k, (A[n,k] · D[n,0]) · Wt[k,·] + B[0,·]` and the row `X[n,·]`, with the four parameter rows. -/
def fusedRows (A : S100000x128.Idx → EReal) (D : S100000x1.Idx → EReal) (X : S100000x128.Idx → EReal)
    (Wt : S128x128.Idx → EReal) (B G1 B1 G2 B2 : S1x128.Idx → EReal) : S100000x128.Idx → EReal :=
  fun i => Cert.Gcn.tail
    (fun c' => (∑ k : Fin 128, (A (ix2 (⟨(i 0).val, idx2_lt0 i⟩ : Fin 100000) k) * D (ix2 (⟨(i 0).val, idx2_lt0 i⟩ : Fin 100000) (0 : Fin 1))) * Wt (ix2 k c')) + B (ix2 (0 : Fin 1) c'))
    (fun c' => X (ix2 (⟨(i 0).val, idx2_lt0 i⟩ : Fin 100000) c'))
    (fun c' => G1 (ix2 (0 : Fin 1) c')) (fun c' => B1 (ix2 (0 : Fin 1) c'))
    (fun c' => G2 (ix2 (0 : Fin 1) c')) (fun c' => B2 (ix2 (0 : Fin 1) c'))
    (⟨(i 1).val, idx2_lt1 i⟩ : Fin 128)

/-- The body's result at a general index of the block. -/
theorem fused_at (x0 : Vec Ideal S10000x128 .f32) (x1 : Vec Ideal S10000x1 .f32) (x2 : Vec Ideal S10000x128 .f32)
    (x3 : Vec Ideal S128x128 .f32) (x4 x5 x6 x7 x8 : Vec Ideal S1x128 .f32) (y : S10000x128.Idx) :
    Gen.out1_9 (F := Ideal) x0 x1 x2 x3 x4 x5 x6 x7 x8 y
      = Cert.Gcn.tail
          (fun c' => (∑ k : Fin 128, (x0 (ix2 (⟨(y 0).val, idx2_lt0 y⟩ : Fin 10000) k) * x1 (ix2 (⟨(y 0).val, idx2_lt0 y⟩ : Fin 10000) (0 : Fin 1))) * x3 (ix2 k c')) + x4 (ix2 (0 : Fin 1) c'))
          (fun c' => x2 (ix2 (⟨(y 0).val, idx2_lt0 y⟩ : Fin 10000) c'))
          (fun c' => x5 (ix2 (0 : Fin 1) c')) (fun c' => x6 (ix2 (0 : Fin 1) c'))
          (fun c' => x7 (ix2 (0 : Fin 1) c')) (fun c' => x8 (ix2 (0 : Fin 1) c'))
          (⟨(y 1).val, idx2_lt1 y⟩ : Fin 128) := by
  have h := Cert.KernelIdeal.Rows.fused_row x0 x1 x2 x3 x4 x5 x6 x7 x8 (⟨(y 0).val, idx2_lt0 y⟩ : Fin 10000) (⟨(y 1).val, idx2_lt1 y⟩ : Fin 128)
  have e : y = ix2 (⟨(y 0).val, idx2_lt0 y⟩ : Fin 10000) (⟨(y 1).val, idx2_lt1 y⟩ : Fin 128) := eq_ix2 y
  rw [← e] at h
  exact h

/-- The arithmetic of one block element, free of the windows: when the row-tiled blocks embed row `p` of the block at
    the row the output's block embeds it at, and the whole-read blocks embed every index at itself, the body's
    result is the fused rows at the embedded index. -/
theorem fused_blk (A : S100000x128.Idx → EReal) (D : S100000x1.Idx → EReal) (X : S100000x128.Idx → EReal)
    (Wt : S128x128.Idx → EReal) (B G1 B1 G2 B2 : S1x128.Idx → EReal)
    (e0 e2 e9 : S10000x128.Idx → S100000x128.Idx) (e1 : S10000x1.Idx → S100000x1.Idx)
    (e3 : S128x128.Idx → S128x128.Idx) (e4 e5 e6 e7 e8 : S1x128.Idx → S1x128.Idx) (y : S10000x128.Idx)
    (h0 : ∀ k : Fin 128, e0 (ix2 (⟨(y 0).val, idx2_lt0 y⟩ : Fin 10000) k) = ix2 (⟨((e9 y) 0).val, idx2_lt0 _⟩ : Fin 100000) k)
    (h1 : e1 (ix2 (⟨(y 0).val, idx2_lt0 y⟩ : Fin 10000) (0 : Fin 1)) = ix2 (⟨((e9 y) 0).val, idx2_lt0 _⟩ : Fin 100000) (0 : Fin 1))
    (h2 : ∀ k : Fin 128, e2 (ix2 (⟨(y 0).val, idx2_lt0 y⟩ : Fin 10000) k) = ix2 (⟨((e9 y) 0).val, idx2_lt0 _⟩ : Fin 100000) k)
    (h3 : ∀ i, e3 i = i) (h4 : ∀ i, e4 i = i) (h5 : ∀ i, e5 i = i) (h6 : ∀ i, e6 i = i) (h7 : ∀ i, e7 i = i)
    (h8 : ∀ i, e8 i = i) (h9 : ((e9 y) 1).val = (y 1).val) :
    Cert.Gcn.tail
        (fun c' => (∑ k : Fin 128, (A (e0 (ix2 (⟨(y 0).val, idx2_lt0 y⟩ : Fin 10000) k)) * D (e1 (ix2 (⟨(y 0).val, idx2_lt0 y⟩ : Fin 10000) (0 : Fin 1)))) * Wt (e3 (ix2 k c'))) + B (e4 (ix2 (0 : Fin 1) c')))
        (fun c' => X (e2 (ix2 (⟨(y 0).val, idx2_lt0 y⟩ : Fin 10000) c')))
        (fun c' => G1 (e5 (ix2 (0 : Fin 1) c'))) (fun c' => B1 (e6 (ix2 (0 : Fin 1) c')))
        (fun c' => G2 (e7 (ix2 (0 : Fin 1) c'))) (fun c' => B2 (e8 (ix2 (0 : Fin 1) c')))
        (⟨(y 1).val, idx2_lt1 y⟩ : Fin 128)
      = fusedRows A D X Wt B G1 B1 G2 B2 (e9 y) := by
  unfold fusedRows
  have hc : (⟨(y 1).val, idx2_lt1 y⟩ : Fin 128) = ⟨((e9 y) 1).val, idx2_lt1 _⟩ := Fin.ext h9.symm
  simp only [h0, h1, h2, h3, h4, h5, h6, h7, h8, hc]

/-- The printed index maps of the second region, decided over its ten points: the row-tiled windows (the aggregated
    rows, the factor column, `x`, the output) are at block `(t, 0)`, the weight and the five parameter rows at `(0, 0)`. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- What point `t` writes back is block `t` of the fused rows of the arrays the region finds. -/
theorem flushed1_eq (c : Dev nD) (t : Fin cfg1.N) :
    (dat1 V c).flushed 9 t = ((cfg1.win 9).blk t).view.read (Elt Ideal)
      (fusedRows (V c main_v26) (V c main_v15) (V c main_arg0) (V c main_v27) (V c main_v28) (V c main_v29) (V c main_v30)
        (V c main_v31) (V c main_v32)) := by
  show (cfg1.win 9).cut (grid1.coords t) ((dat1 V c).after 9 t) = _
  rw [after1_9]
  obtain ⟨a0, a1, b0, b1, c0, c1, d0, d1, f0, f1, g0, g1, i0, i1, j0, j1, k0, k1, l0, l1⟩ := idx_facts1 t
  funext y
  refine (fused_at (iblk1 V c 0 t) (iblk1 V c 1 t) (iblk1 V c 2 t) (iblk1 V c 3 t) (iblk1 V c 4 t) (iblk1 V c 5 t)
    (iblk1 V c 6 t) (iblk1 V c 7 t) (iblk1 V c 8 t) y).trans ?_
  have h0 : ∀ k : Fin 128, ((cfg1.win 0).blk t).view.emb (ix2 (⟨(y 0).val, idx2_lt0 y⟩ : Fin 10000) k)
      = ix2 (⟨((((cfg1.win 9).blk t).view.emb y) 0).val, idx2_lt0 _⟩ : Fin 100000) k := fun k => by
    funext a; apply Fin.ext
    match a with
    | ⟨0, _⟩ => show win1_0.index t (0 : Fin 2) * 10000 + 1 * (y 0).val = win1_9.index t (0 : Fin 2) * 10000 + 1 * (y 0).val; omega
    | ⟨1, _⟩ => show win1_0.index t (1 : Fin 2) * 128 + 1 * k.val = k.val; omega
  have h1 : ((cfg1.win 1).blk t).view.emb (ix2 (⟨(y 0).val, idx2_lt0 y⟩ : Fin 10000) (0 : Fin 1))
      = ix2 (⟨((((cfg1.win 9).blk t).view.emb y) 0).val, idx2_lt0 _⟩ : Fin 100000) (0 : Fin 1) := by
    funext a; apply Fin.ext
    match a with
    | ⟨0, _⟩ => show win1_1.index t (0 : Fin 2) * 10000 + 1 * (y 0).val = win1_9.index t (0 : Fin 2) * 10000 + 1 * (y 0).val; omega
    | ⟨1, _⟩ => show win1_1.index t (1 : Fin 2) * 1 + 1 * 0 = 0; omega
  have h2 : ∀ k : Fin 128, ((cfg1.win 2).blk t).view.emb (ix2 (⟨(y 0).val, idx2_lt0 y⟩ : Fin 10000) k)
      = ix2 (⟨((((cfg1.win 9).blk t).view.emb y) 0).val, idx2_lt0 _⟩ : Fin 100000) k := fun k => by
    funext a; apply Fin.ext
    match a with
    | ⟨0, _⟩ => show win1_2.index t (0 : Fin 2) * 10000 + 1 * (y 0).val = win1_9.index t (0 : Fin 2) * 10000 + 1 * (y 0).val; omega
    | ⟨1, _⟩ => show win1_2.index t (1 : Fin 2) * 128 + 1 * k.val = k.val; omega
  have h3 : ∀ i : S128x128.Idx, ((cfg1.win 3).blk t).view.emb i = i := fun i => by
    funext a; apply Fin.ext
    match a with
    | ⟨0, _⟩ => show win1_3.index t (0 : Fin 2) * 128 + 1 * (i 0).val = (i 0).val; omega
    | ⟨1, _⟩ => show win1_3.index t (1 : Fin 2) * 128 + 1 * (i 1).val = (i 1).val; omega
  have h4 : ∀ i : S1x128.Idx, ((cfg1.win 4).blk t).view.emb i = i := fun i => by
    funext a; apply Fin.ext
    match a with
    | ⟨0, _⟩ => show win1_4.index t (0 : Fin 2) * 1 + 1 * (i 0).val = (i 0).val; omega
    | ⟨1, _⟩ => show win1_4.index t (1 : Fin 2) * 128 + 1 * (i 1).val = (i 1).val; omega
  have h5 : ∀ i : S1x128.Idx, ((cfg1.win 5).blk t).view.emb i = i := fun i => by
    funext a; apply Fin.ext
    match a with
    | ⟨0, _⟩ => show win1_5.index t (0 : Fin 2) * 1 + 1 * (i 0).val = (i 0).val; omega
    | ⟨1, _⟩ => show win1_5.index t (1 : Fin 2) * 128 + 1 * (i 1).val = (i 1).val; omega
  have h6 : ∀ i : S1x128.Idx, ((cfg1.win 6).blk t).view.emb i = i := fun i => by
    funext a; apply Fin.ext
    match a with
    | ⟨0, _⟩ => show win1_6.index t (0 : Fin 2) * 1 + 1 * (i 0).val = (i 0).val; omega
    | ⟨1, _⟩ => show win1_6.index t (1 : Fin 2) * 128 + 1 * (i 1).val = (i 1).val; omega
  have h7 : ∀ i : S1x128.Idx, ((cfg1.win 7).blk t).view.emb i = i := fun i => by
    funext a; apply Fin.ext
    match a with
    | ⟨0, _⟩ => show win1_7.index t (0 : Fin 2) * 1 + 1 * (i 0).val = (i 0).val; omega
    | ⟨1, _⟩ => show win1_7.index t (1 : Fin 2) * 128 + 1 * (i 1).val = (i 1).val; omega
  have h8 : ∀ i : S1x128.Idx, ((cfg1.win 8).blk t).view.emb i = i := fun i => by
    funext a; apply Fin.ext
    match a with
    | ⟨0, _⟩ => show win1_8.index t (0 : Fin 2) * 1 + 1 * (i 0).val = (i 0).val; omega
    | ⟨1, _⟩ => show win1_8.index t (1 : Fin 2) * 128 + 1 * (i 1).val = (i 1).val; omega
  have h9 : ((((cfg1.win 9).blk t).view.emb y) 1).val = (y 1).val := by
    show win1_9.index t (1 : Fin 2) * 128 + 1 * (y 1).val = (y 1).val; omega
  exact fused_blk (V c main_v26) (V c main_v15) (V c main_arg0) (V c main_v27) (V c main_v28) (V c main_v29) (V c main_v30)
    (V c main_v31) (V c main_v32)
    (((cfg1.win 0).blk t).view.emb) (((cfg1.win 2).blk t).view.emb) (((cfg1.win 9).blk t).view.emb) (((cfg1.win 1).blk t).view.emb)
    (((cfg1.win 3).blk t).view.emb) (((cfg1.win 4).blk t).view.emb) (((cfg1.win 5).blk t).view.emb) (((cfg1.win 6).blk t).view.emb)
    (((cfg1.win 7).blk t).view.emb) (((cfg1.win 8).blk t).view.emb) y h0 h1 h2 h3 h4 h5 h6 h7 h8 h9

/-- Every block of the output is some point's. -/
theorem idx_onto1 : ∀ q : Fin 10, ∃ t : Fin cfg1.N, win1_9.index t = ![q.val, 0] :=
  (by decide +kernel : ∀ q : Fin 10, ∃ t : Fin grid1.N, win1_9.index t = ![q.val, 0])

/-- The ten blocks tile the output: row `r` is in block `r / 10000`. -/
theorem cover1 (i : S100000x128.Idx) : ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ := idx_onto1 ⟨(i 0).val / 10000, by omega⟩
  have q0 : win1_9.index t (0 : Fin 2) = (i 0).val / 10000 := congrFun ht 0
  have q1 : win1_9.index t (1 : Fin 2) = 0 := congrFun ht 1
  refine ⟨t, flush1_9 t, ?_⟩
  show i ∈ ((View.whole main_v33).slice (win1_9.rect t)).set
  rw [View.set_slice_whole, Rect.mem_set_unit]
  intro a
  match a with
  | ⟨0, _⟩ => show win1_9.index t (0 : Fin 2) * 10000 ≤ (i 0).val ∧ (i 0).val < win1_9.index t (0 : Fin 2) * 10000 + 10000; omega
  | ⟨1, _⟩ => show win1_9.index t (1 : Fin 2) * 128 ≤ (i 1).val ∧ (i 1).val < win1_9.index t (1 : Fin 2) * 128 + 128; omega

/-- The second region's output array ends holding the fused rows. -/
theorem final1 (c : Dev nD) : (dat1 V c).arrAt 9 cfg1.N
    = fusedRows (V c main_v26) (V c main_v15) (V c main_arg0) (V c main_v27) (V c main_v28) (V c main_v29) (V c main_v30)
        (V c main_v31) (V c main_v32) :=
  (dat1 V c).arrAt_eq_of_cover 9 _ (fun t _ => flushed1_eq V c t) cover1

end Cert.KernelIdeal.Hand

end
-- ==== Proof.KernelHost.lean ====
/-
  What the idealized kernel program's host operations leave in the buffers its two regions read, as functions of
  the arguments.

  Before the first region the host builds, from the edge-index argument alone, the source and destination words of
  every edge (self-loops appended) and each node's inverse square-root degree — the very operations the reference
  program applies, so each of these buffers is the reference's stage of the same argument — and reshapes the degrees'
  factors to a column. Between the regions it shifts negative source words up by the node count, gathers the scaled
  rows at the source words, adds them into zeros at the destination words, transposes the weight and reshapes the bias
  and the four normalisation parameters to `[1, 128]` rows. No host operation and no region writes an argument.
-/
import proofs.«163821_j32736240730563_2_alg».proof.Proof.KernelBlocks
import proofs.«163821_j32736240730563_2_alg».proof.Proof.RefRead
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-- A buffer none of a stretch's operations writes keeps its contents across the stretch. -/
macro "not_written_by " ops:ident : tactic => `(tactic| (
  refine StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))

/-! ## Before the first region -/

theorem W1_main_v3 (c : Dev nD) : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results
  rfl

theorem W1_main_v6 (c : Dev nD) : W1 m ρ c (Proc.devRef .tc main_v6) = Cert.ReferenceIdeal.Read.val_main_v6 (F := Ideal) (m ((c.tc : Thread nD τ).loc main_arg1)) := by
  show StableHlo.after hostOps0 (W0 m ρ c) (Proc.devRef .tc main_v6) = _
  after_results
  rfl

theorem W1_main_v12 (c : Dev nD) : W1 m ρ c (Proc.devRef .tc main_v12) = Cert.ReferenceIdeal.Read.val_main_v12 (F := Ideal) (m ((c.tc : Thread nD τ).loc main_arg1)) := by
  show StableHlo.after hostOps0 (W0 m ρ c) (Proc.devRef .tc main_v12) = _
  after_results
  rfl

theorem W1_main_v13 (c : Dev nD) : W1 m ρ c (Proc.devRef .tc main_v13) = Cert.ReferenceIdeal.Read.val_main_v13 (F := Ideal) (m ((c.tc : Thread nD τ).loc main_arg1)) := by
  show StableHlo.after hostOps0 (W0 m ρ c) (Proc.devRef .tc main_v13) = _
  after_results
  rfl

theorem W1_main_cst_2 (c : Dev nD) : W1 m ρ c (Proc.devRef .tc main_cst_2) = Cert.ReferenceIdeal.Read.val_main_cst_2 (F := Ideal) := by
  show StableHlo.after hostOps0 (W0 m ρ c) (Proc.devRef .tc main_cst_2) = _
  after_results
  rfl

theorem W1_main_arg0 (c : Dev nD) : W1 m ρ c (Proc.devRef .tc main_arg0) = (m ((c.tc : Thread nD τ).loc main_arg0)) := by
  refine Eq.trans (b := W0 m ρ c (Proc.devRef .tc main_arg0)) ?_ rfl
  show StableHlo.after hostOps0 (W0 m ρ c) (Proc.devRef .tc main_arg0) = _
  not_written_by hostOps0

theorem W1_main_arg2 (c : Dev nD) : W1 m ρ c (Proc.devRef .tc main_arg2) = (m ((c.tc : Thread nD τ).loc main_arg2)) := by
  refine Eq.trans (b := W0 m ρ c (Proc.devRef .tc main_arg2)) ?_ rfl
  show StableHlo.after hostOps0 (W0 m ρ c) (Proc.devRef .tc main_arg2) = _
  not_written_by hostOps0

theorem W1_main_arg3 (c : Dev nD) : W1 m ρ c (Proc.devRef .tc main_arg3) = (m ((c.tc : Thread nD τ).loc main_arg3)) := by
  refine Eq.trans (b := W0 m ρ c (Proc.devRef .tc main_arg3)) ?_ rfl
  show StableHlo.after hostOps0 (W0 m ρ c) (Proc.devRef .tc main_arg3) = _
  not_written_by hostOps0

theorem W1_main_arg4 (c : Dev nD) : W1 m ρ c (Proc.devRef .tc main_arg4) = (m ((c.tc : Thread nD τ).loc main_arg4)) := by
  refine Eq.trans (b := W0 m ρ c (Proc.devRef .tc main_arg4)) ?_ rfl
  show StableHlo.after hostOps0 (W0 m ρ c) (Proc.devRef .tc main_arg4) = _
  not_written_by hostOps0

theorem W1_main_arg5 (c : Dev nD) : W1 m ρ c (Proc.devRef .tc main_arg5) = (m ((c.tc : Thread nD τ).loc main_arg5)) := by
  refine Eq.trans (b := W0 m ρ c (Proc.devRef .tc main_arg5)) ?_ rfl
  show StableHlo.after hostOps0 (W0 m ρ c) (Proc.devRef .tc main_arg5) = _
  not_written_by hostOps0

theorem W1_main_arg6 (c : Dev nD) : W1 m ρ c (Proc.devRef .tc main_arg6) = (m ((c.tc : Thread nD τ).loc main_arg6)) := by
  refine Eq.trans (b := W0 m ρ c (Proc.devRef .tc main_arg6)) ?_ rfl
  show StableHlo.after hostOps0 (W0 m ρ c) (Proc.devRef .tc main_arg6) = _
  not_written_by hostOps0

theorem W1_main_arg7 (c : Dev nD) : W1 m ρ c (Proc.devRef .tc main_arg7) = (m ((c.tc : Thread nD τ).loc main_arg7)) := by
  refine Eq.trans (b := W0 m ρ c (Proc.devRef .tc main_arg7)) ?_ rfl
  show StableHlo.after hostOps0 (W0 m ρ c) (Proc.devRef .tc main_arg7) = _
  not_written_by hostOps0

/-- The nodes' factors are the reference's stage of the edge-index argument: the select of the inverse square root
    where the degree is positive and zero elsewhere. -/
theorem W2_main_v14 (c : Dev nD) : W2 m ρ c (Proc.devRef .tc main_v14) = Cert.ReferenceIdeal.Read.val_main_v14 (F := Ideal) (m ((c.tc : Thread nD τ).loc main_arg1)) := by
  show StableHlo.after hostOps0_1 (W1 m ρ c) (Proc.devRef .tc main_v14) = _
  have h12 := W1_main_v12 m ρ c
  have h13 := W1_main_v13 m ρ c
  have hc2 := W1_main_cst_2 m ρ c
  generalize W1 m ρ c = W1' at h12 h13 hc2 ⊢
  after_results
  show select (W1' (Proc.devRef .tc main_v12)) (W1' (Proc.devRef .tc main_v13))
    (broadcastInDim S100000 ![] bcast_S_S100000 (id (W1' (Proc.devRef .tc main_cst_2)))) = _
  rw [h12, h13, hc2]
  rfl

/-- The factor column is the reference's factors reshaped to `[100000, 1]`. -/
theorem W3_main_v15 (c : Dev nD) : W3 m ρ c (Proc.devRef .tc main_v15) = (shapeCast S100000x1 (Cert.ReferenceIdeal.Read.val_main_v14 (F := Ideal) (m ((c.tc : Thread nD τ).loc main_arg1))) shapeCasts_S100000_S100000x1) := by
  show StableHlo.after hostOps0_2 (W2 m ρ c) (Proc.devRef .tc main_v15) = _
  have h14 := W2_main_v14 m ρ c
  generalize W2 m ρ c = W2' at h14 ⊢
  after_results
  rw [h14]
  rfl

theorem W3_main_v3 (c : Dev nD) : W3 m ρ c (Proc.devRef .tc main_v3) = Cert.ReferenceIdeal.Read.val_main_v3 (F := Ideal) (m ((c.tc : Thread nD τ).loc main_arg1)) := by
  refine Eq.trans (b := W2 m ρ c (Proc.devRef .tc main_v3)) ?_ (Eq.trans (b := W1 m ρ c (Proc.devRef .tc main_v3)) ?_ (W1_main_v3 m ρ c))
  · show StableHlo.after hostOps0_2 (W2 m ρ c) (Proc.devRef .tc main_v3) = _
    not_written_by hostOps0_2
  · show StableHlo.after hostOps0_1 (W1 m ρ c) (Proc.devRef .tc main_v3) = _
    not_written_by hostOps0_1

theorem W3_main_v6 (c : Dev nD) : W3 m ρ c (Proc.devRef .tc main_v6) = Cert.ReferenceIdeal.Read.val_main_v6 (F := Ideal) (m ((c.tc : Thread nD τ).loc main_arg1)) := by
  refine Eq.trans (b := W2 m ρ c (Proc.devRef .tc main_v6)) ?_ (Eq.trans (b := W1 m ρ c (Proc.devRef .tc main_v6)) ?_ (W1_main_v6 m ρ c))
  · show StableHlo.after hostOps0_2 (W2 m ρ c) (Proc.devRef .tc main_v6) = _
    not_written_by hostOps0_2
  · show StableHlo.after hostOps0_1 (W1 m ρ c) (Proc.devRef .tc main_v6) = _
    not_written_by hostOps0_1

theorem W3_main_arg0 (c : Dev nD) : W3 m ρ c (Proc.devRef .tc main_arg0) = (m ((c.tc : Thread nD τ).loc main_arg0)) := by
  refine Eq.trans (b := W2 m ρ c (Proc.devRef .tc main_arg0)) ?_ (Eq.trans (b := W1 m ρ c (Proc.devRef .tc main_arg0)) ?_ (W1_main_arg0 m ρ c))
  · show StableHlo.after hostOps0_2 (W2 m ρ c) (Proc.devRef .tc main_arg0) = _
    not_written_by hostOps0_2
  · show StableHlo.after hostOps0_1 (W1 m ρ c) (Proc.devRef .tc main_arg0) = _
    not_written_by hostOps0_1

theorem W3_main_arg2 (c : Dev nD) : W3 m ρ c (Proc.devRef .tc main_arg2) = (m ((c.tc : Thread nD τ).loc main_arg2)) := by
  refine Eq.trans (b := W2 m ρ c (Proc.devRef .tc main_arg2)) ?_ (Eq.trans (b := W1 m ρ c (Proc.devRef .tc main_arg2)) ?_ (W1_main_arg2 m ρ c))
  · show StableHlo.after hostOps0_2 (W2 m ρ c) (Proc.devRef .tc main_arg2) = _
    not_written_by hostOps0_2
  · show StableHlo.after hostOps0_1 (W1 m ρ c) (Proc.devRef .tc main_arg2) = _
    not_written_by hostOps0_1

theorem W3_main_arg3 (c : Dev nD) : W3 m ρ c (Proc.devRef .tc main_arg3) = (m ((c.tc : Thread nD τ).loc main_arg3)) := by
  refine Eq.trans (b := W2 m ρ c (Proc.devRef .tc main_arg3)) ?_ (Eq.trans (b := W1 m ρ c (Proc.devRef .tc main_arg3)) ?_ (W1_main_arg3 m ρ c))
  · show StableHlo.after hostOps0_2 (W2 m ρ c) (Proc.devRef .tc main_arg3) = _
    not_written_by hostOps0_2
  · show StableHlo.after hostOps0_1 (W1 m ρ c) (Proc.devRef .tc main_arg3) = _
    not_written_by hostOps0_1

theorem W3_main_arg4 (c : Dev nD) : W3 m ρ c (Proc.devRef .tc main_arg4) = (m ((c.tc : Thread nD τ).loc main_arg4)) := by
  refine Eq.trans (b := W2 m ρ c (Proc.devRef .tc main_arg4)) ?_ (Eq.trans (b := W1 m ρ c (Proc.devRef .tc main_arg4)) ?_ (W1_main_arg4 m ρ c))
  · show StableHlo.after hostOps0_2 (W2 m ρ c) (Proc.devRef .tc main_arg4) = _
    not_written_by hostOps0_2
  · show StableHlo.after hostOps0_1 (W1 m ρ c) (Proc.devRef .tc main_arg4) = _
    not_written_by hostOps0_1

theorem W3_main_arg5 (c : Dev nD) : W3 m ρ c (Proc.devRef .tc main_arg5) = (m ((c.tc : Thread nD τ).loc main_arg5)) := by
  refine Eq.trans (b := W2 m ρ c (Proc.devRef .tc main_arg5)) ?_ (Eq.trans (b := W1 m ρ c (Proc.devRef .tc main_arg5)) ?_ (W1_main_arg5 m ρ c))
  · show StableHlo.after hostOps0_2 (W2 m ρ c) (Proc.devRef .tc main_arg5) = _
    not_written_by hostOps0_2
  · show StableHlo.after hostOps0_1 (W1 m ρ c) (Proc.devRef .tc main_arg5) = _
    not_written_by hostOps0_1

theorem W3_main_arg6 (c : Dev nD) : W3 m ρ c (Proc.devRef .tc main_arg6) = (m ((c.tc : Thread nD τ).loc main_arg6)) := by
  refine Eq.trans (b := W2 m ρ c (Proc.devRef .tc main_arg6)) ?_ (Eq.trans (b := W1 m ρ c (Proc.devRef .tc main_arg6)) ?_ (W1_main_arg6 m ρ c))
  · show StableHlo.after hostOps0_2 (W2 m ρ c) (Proc.devRef .tc main_arg6) = _
    not_written_by hostOps0_2
  · show StableHlo.after hostOps0_1 (W1 m ρ c) (Proc.devRef .tc main_arg6) = _
    not_written_by hostOps0_1

theorem W3_main_arg7 (c : Dev nD) : W3 m ρ c (Proc.devRef .tc main_arg7) = (m ((c.tc : Thread nD τ).loc main_arg7)) := by
  refine Eq.trans (b := W2 m ρ c (Proc.devRef .tc main_arg7)) ?_ (Eq.trans (b := W1 m ρ c (Proc.devRef .tc main_arg7)) ?_ (W1_main_arg7 m ρ c))
  · show StableHlo.after hostOps0_2 (W2 m ρ c) (Proc.devRef .tc main_arg7) = _
    not_written_by hostOps0_2
  · show StableHlo.after hostOps0_1 (W1 m ρ c) (Proc.devRef .tc main_arg7) = _
    not_written_by hostOps0_1

/-! ## Across the first region: its output holds the scaled rows, every other buffer is as entered -/

theorem W4_main_v3 (c : Dev nD) : W4 m ρ c (Proc.devRef .tc main_v3) = Cert.ReferenceIdeal.Read.val_main_v3 (F := Ideal) (m ((c.tc : Thread nD τ).loc main_arg1)) :=
  (W4_of_ne m ρ c main_v3 (by decide)).trans (W3_main_v3 m ρ c)

theorem W4_main_v6 (c : Dev nD) : W4 m ρ c (Proc.devRef .tc main_v6) = Cert.ReferenceIdeal.Read.val_main_v6 (F := Ideal) (m ((c.tc : Thread nD τ).loc main_arg1)) :=
  (W4_of_ne m ρ c main_v6 (by decide)).trans (W3_main_v6 m ρ c)

theorem W4_main_arg2 (c : Dev nD) : W4 m ρ c (Proc.devRef .tc main_arg2) = (m ((c.tc : Thread nD τ).loc main_arg2)) :=
  (W4_of_ne m ρ c main_arg2 (by decide)).trans (W3_main_arg2 m ρ c)

theorem W4_main_arg3 (c : Dev nD) : W4 m ρ c (Proc.devRef .tc main_arg3) = (m ((c.tc : Thread nD τ).loc main_arg3)) :=
  (W4_of_ne m ρ c main_arg3 (by decide)).trans (W3_main_arg3 m ρ c)

theorem W4_main_arg4 (c : Dev nD) : W4 m ρ c (Proc.devRef .tc main_arg4) = (m ((c.tc : Thread nD τ).loc main_arg4)) :=
  (W4_of_ne m ρ c main_arg4 (by decide)).trans (W3_main_arg4 m ρ c)

theorem W4_main_arg5 (c : Dev nD) : W4 m ρ c (Proc.devRef .tc main_arg5) = (m ((c.tc : Thread nD τ).loc main_arg5)) :=
  (W4_of_ne m ρ c main_arg5 (by decide)).trans (W3_main_arg5 m ρ c)

theorem W4_main_arg6 (c : Dev nD) : W4 m ρ c (Proc.devRef .tc main_arg6) = (m ((c.tc : Thread nD τ).loc main_arg6)) :=
  (W4_of_ne m ρ c main_arg6 (by decide)).trans (W3_main_arg6 m ρ c)

theorem W4_main_arg7 (c : Dev nD) : W4 m ρ c (Proc.devRef .tc main_arg7) = (m ((c.tc : Thread nD τ).loc main_arg7)) :=
  (W4_of_ne m ρ c main_arg7 (by decide)).trans (W3_main_arg7 m ρ c)

theorem W4_main_arg0 (c : Dev nD) : W4 m ρ c (Proc.devRef .tc main_arg0) = (m ((c.tc : Thread nD τ).loc main_arg0)) :=
  ((W4_arr m ρ c 0).trans (((dat0 (V3 m ρ) c).arrAt_in 0 rfl _).trans (A_eq0 (V3 m ρ) c 0))).trans (W3_main_arg0 m ρ c)

theorem W4_main_v15 (c : Dev nD) : W4 m ρ c (Proc.devRef .tc main_v15) = (shapeCast S100000x1 (Cert.ReferenceIdeal.Read.val_main_v14 (F := Ideal) (m ((c.tc : Thread nD τ).loc main_arg1))) shapeCasts_S100000_S100000x1) :=
  ((W4_arr m ρ c 1).trans (((dat0 (V3 m ρ) c).arrAt_in 1 rfl _).trans (A_eq0 (V3 m ρ) c 1))).trans (W3_main_v15 m ρ c)

/-- The first region's output: every row of `x` scaled by its node's factor. -/
theorem W4_main_v16 (c : Dev nD) : W4 m ρ c (Proc.devRef .tc main_v16) = scaled (m ((c.tc : Thread nD τ).loc main_arg0)) (shapeCast S100000x1 (Cert.ReferenceIdeal.Read.val_main_v14 (F := Ideal) (m ((c.tc : Thread nD τ).loc main_arg1))) shapeCasts_S100000_S100000x1) := by
  refine (W4_arr m ρ c 2).trans ((final0 (V3 m ρ) c).trans ?_)
  show scaled (W3 m ρ c (Proc.devRef .tc main_arg0)) (W3 m ρ c (Proc.devRef .tc main_v15)) = _
  rw [W3_main_arg0, W3_main_v15]

/-! ## Between the regions -/

/-- The aggregated rows: the scaled rows gathered at the (shifted) source words and added into zeros at the
    destination words — with the reference's own two index arrays. -/
theorem W5_main_v26 (c : Dev nD) : W5 m ρ c (Proc.devRef .tc main_v26)
    = Host.scatterAdd scatter_S100000x128_S1700000x1_S1700000x128_1_0_0_1
        (broadcastInDim S100000x128 ![] bcast_S_S100000x128 (constant (F := Ideal) S_ .f32 0x00000000#32))
        (Cert.ReferenceIdeal.Read.val_main_v43 (F := Ideal) (m ((c.tc : Thread nD τ).loc main_arg1)))
        (Host.gather gather_S100000x128_S1700000x1_S1700000x128_1_0_n_n_0_1_1128 (scaled (m ((c.tc : Thread nD τ).loc main_arg0)) (shapeCast S100000x1 (Cert.ReferenceIdeal.Read.val_main_v14 (F := Ideal) (m ((c.tc : Thread nD τ).loc main_arg1))) shapeCasts_S100000_S100000x1))
          (Cert.ReferenceIdeal.Read.val_main_v37 (F := Ideal) (m ((c.tc : Thread nD τ).loc main_arg1)))) := by
  show StableHlo.after hostOps1 (W4 m ρ c) (Proc.devRef .tc main_v26) = _
  after_results
  rw [W4_main_v6, W4_main_v3, W4_main_v16]
  rfl

/-- The weight, transposed. -/
theorem W5_main_v27 (c : Dev nD) : W5 m ρ c (Proc.devRef .tc main_v27)
    = transpose S128x128 [1, 0] (m ((c.tc : Thread nD τ).loc main_arg2)) transposes_S128x128_S128x128_1_0 := by
  show StableHlo.after hostOps1 (W4 m ρ c) (Proc.devRef .tc main_v27) = _
  after_results
  rw [W4_main_arg2]

theorem W5_main_v28 (c : Dev nD) : W5 m ρ c (Proc.devRef .tc main_v28)
    = shapeCast S1x128 (m ((c.tc : Thread nD τ).loc main_arg3)) shapeCasts_S128_S1x128 := by
  show StableHlo.after hostOps1 (W4 m ρ c) (Proc.devRef .tc main_v28) = _
  after_results
  rw [W4_main_arg3]
  rfl

theorem W5_main_v29 (c : Dev nD) : W5 m ρ c (Proc.devRef .tc main_v29)
    = shapeCast S1x128 (m ((c.tc : Thread nD τ).loc main_arg4)) shapeCasts_S128_S1x128 := by
  show StableHlo.after hostOps1 (W4 m ρ c) (Proc.devRef .tc main_v29) = _
  after_results
  rw [W4_main_arg4]
  rfl

theorem W5_main_v30 (c : Dev nD) : W5 m ρ c (Proc.devRef .tc main_v30)
    = shapeCast S1x128 (m ((c.tc : Thread nD τ).loc main_arg5)) shapeCasts_S128_S1x128 := by
  show StableHlo.after hostOps1 (W4 m ρ c) (Proc.devRef .tc main_v30) = _
  after_results
  rw [W4_main_arg5]
  rfl

theorem W5_main_v31 (c : Dev nD) : W5 m ρ c (Proc.devRef .tc main_v31)
    = shapeCast S1x128 (m ((c.tc : Thread nD τ).loc main_arg6)) shapeCasts_S128_S1x128 := by
  show StableHlo.after hostOps1 (W4 m ρ c) (Proc.devRef .tc main_v31) = _
  after_results
  rw [W4_main_arg6]
  rfl

theorem W5_main_v32 (c : Dev nD) : W5 m ρ c (Proc.devRef .tc main_v32)
    = shapeCast S1x128 (m ((c.tc : Thread nD τ).loc main_arg7)) shapeCasts_S128_S1x128 := by
  show StableHlo.after hostOps1 (W4 m ρ c) (Proc.devRef .tc main_v32) = _
  after_results
  rw [W4_main_arg7]
  rfl

theorem W5_main_v15 (c : Dev nD) : W5 m ρ c (Proc.devRef .tc main_v15) = (shapeCast S100000x1 (Cert.ReferenceIdeal.Read.val_main_v14 (F := Ideal) (m ((c.tc : Thread nD τ).loc main_arg1))) shapeCasts_S100000_S100000x1) := by
  refine Eq.trans ?_ (W4_main_v15 m ρ c)
  show StableHlo.after hostOps1 (W4 m ρ c) (Proc.devRef .tc main_v15) = _
  not_written_by hostOps1

theorem W5_main_arg0 (c : Dev nD) : W5 m ρ c (Proc.devRef .tc main_arg0) = (m ((c.tc : Thread nD τ).loc main_arg0)) := by
  refine Eq.trans ?_ (W4_main_arg0 m ρ c)
  show StableHlo.after hostOps1 (W4 m ρ c) (Proc.devRef .tc main_arg0) = _
  not_written_by hostOps1

/-! ## The result -/

/-- The result buffer ends holding the fused rows of: the aggregated rows, the factor column, `x`, the transposed
    weight, and the bias and the four normalisation parameters as `[1, 128]` rows. -/
theorem result_eq (c : Dev nD) : W6 m ρ c (Proc.devRef .tc main_v33)
    = fusedRows
        (Host.scatterAdd scatter_S100000x128_S1700000x1_S1700000x128_1_0_0_1
          (broadcastInDim S100000x128 ![] bcast_S_S100000x128 (constant (F := Ideal) S_ .f32 0x00000000#32))
          (Cert.ReferenceIdeal.Read.val_main_v43 (F := Ideal) (m ((c.tc : Thread nD τ).loc main_arg1)))
          (Host.gather gather_S100000x128_S1700000x1_S1700000x128_1_0_n_n_0_1_1128 (scaled (m ((c.tc : Thread nD τ).loc main_arg0)) (shapeCast S100000x1 (Cert.ReferenceIdeal.Read.val_main_v14 (F := Ideal) (m ((c.tc : Thread nD τ).loc main_arg1))) shapeCasts_S100000_S100000x1))
            (Cert.ReferenceIdeal.Read.val_main_v37 (F := Ideal) (m ((c.tc : Thread nD τ).loc main_arg1)))))
        (shapeCast S100000x1 (Cert.ReferenceIdeal.Read.val_main_v14 (F := Ideal) (m ((c.tc : Thread nD τ).loc main_arg1))) shapeCasts_S100000_S100000x1) (m ((c.tc : Thread nD τ).loc main_arg0))
        (transpose S128x128 [1, 0] (m ((c.tc : Thread nD τ).loc main_arg2)) transposes_S128x128_S128x128_1_0)
        (shapeCast S1x128 (m ((c.tc : Thread nD τ).loc main_arg3)) shapeCasts_S128_S1x128) (shapeCast S1x128 (m ((c.tc : Thread nD τ).loc main_arg4)) shapeCasts_S128_S1x128)
        (shapeCast S1x128 (m ((c.tc : Thread nD τ).loc main_arg5)) shapeCasts_S128_S1x128) (shapeCast S1x128 (m ((c.tc : Thread nD τ).loc main_arg6)) shapeCasts_S128_S1x128)
        (shapeCast S1x128 (m ((c.tc : Thread nD τ).loc main_arg7)) shapeCasts_S128_S1x128) := by
  refine (W6_result m ρ c).trans ((final1 (V5 m ρ) c).trans ?_)
  show fusedRows (W5 m ρ c (Proc.devRef .tc main_v26)) (W5 m ρ c (Proc.devRef .tc main_v15)) (W5 m ρ c (Proc.devRef .tc main_arg0))
    (W5 m ρ c (Proc.devRef .tc main_v27)) (W5 m ρ c (Proc.devRef .tc main_v28)) (W5 m ρ c (Proc.devRef .tc main_v29))
    (W5 m ρ c (Proc.devRef .tc main_v30)) (W5 m ρ c (Proc.devRef .tc main_v31)) (W5 m ρ c (Proc.devRef .tc main_v32)) = _
  rw [W5_main_v26, W5_main_v15, W5_main_arg0, W5_main_v27, W5_main_v28, W5_main_v29, W5_main_v30, W5_main_v31, W5_main_v32]

end Cert.KernelIdeal.Hand

end
-- ==== Proof.Graph.lean ====
/-
  The graph as both programs read it off the edge-index argument.

  Both programs append the self-loops to the two rows of the edge index, giving for each of the 1,700,000 edges a
  source and a destination word. A message is GATHERED from the row named by the source word after negative words are
  shifted up by the node count, read as a signed integer and clamped into the node range; it LANDS on the row whose
  number the destination word is, read as a signed integer and not clamped, and on no row when that number is outside
  the node range. A node's factor is the inverse square root of the number of edges landing on it (zero when none).
-/
import proofs.«163821_j32736240730563_2_alg».proof.Proof.RefRead
import Idealize.ShloMosaic.Lib.ValueIdx

noncomputable section

namespace Cert.ReferenceIdeal.Graph

open Cert.ReferenceIdeal Cert.ReferenceIdeal.Read Idealize.ShloMosaic Idealize.ShloMosaic.ValueIdx

/-- The row edge `e`'s message is gathered from. -/
def srcRow (x1 : (⟨S2x1600000, .i32⟩ : BufTy).Contents (Elt Ideal)) (e : Fin 1700000) : Fin 100000 :=
  ⟨min (val_main_v37 (F := Ideal) x1 (ix2 e (0 : Fin 1))).toInt.toNat 99999, by omega⟩

/-- The edges whose message lands on row `n`. -/
def lands (x1 : (⟨S2x1600000, .i32⟩ : BufTy).Contents (Elt Ideal)) (n : Fin 100000) : Finset (Fin 1700000) :=
  Finset.univ.filter fun e => (val_main_v43 (F := Ideal) x1 (ix2 e (0 : Fin 1))).toInt = (n.val : Int)

/-- Node `n`'s inverse square-root degree. -/
def dinvRow (x1 : (⟨S2x1600000, .i32⟩ : BufTy).Contents (Elt Ideal)) (n : Fin 100000) : EReal :=
  val_main_v14 (F := Ideal) x1 (ix1 n)

end Cert.ReferenceIdeal.Graph

end
-- ==== Proof.Layer.lean ====
/-
  The layer's output as one function of the eight arguments, in its two arrangements.

  At node `n` and channel `c` the output is the row-wise tail (bias, `max · 0`, layer normalisation, residual, layer
  normalisation) of the linear part's row `n`, the row `x[n,·]` and the parameters. The linear part is either
  "scale, aggregate, transform" or "transform, scale and aggregate" over the graph read off the edge-index argument;
  with `x`, the weight and the nodes' factors real-valued the two are equal entry by entry, so the two outputs are
  one function.
-/
import proofs.«163821_j32736240730563_2_alg».proof.Proof.Graph
import proofs.«163821_j32736240730563_2_alg».proof.Proof.Spec

noncomputable section

namespace Cert.Layer

open Cert.ReferenceIdeal Cert.ReferenceIdeal.Graph Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 x6 x7 : (⟨S128, .f32⟩ : BufTy).Contents (Elt Ideal))

/-- The row-wise tail applied to a linear part `conv`, at node `n` and channel `c`. -/
def rowOut (conv : Fin 100000 → Fin 128 → EReal) (n : Fin 100000) (c : Fin 128) : EReal :=
  Cert.Gcn.tail (fun c' => conv n c' + (x3 (ix1 c') : EReal)) (fun c' => x0 (ix2 n c')) (fun c' => x4 (ix1 c'))
    (fun c' => x5 (ix1 c')) (fun c' => x6 (ix1 c')) (fun c' => x7 (ix1 c')) c

/-- The output with the linear part arranged "scale, aggregate, transform". -/
def layerK : S100000x128.Idx → EReal := fun i =>
  rowOut x0 x3 x4 x5 x6 x7 (Cert.Gcn.convK (srcRow x1) (lands x1) (dinvRow x1) x0 x2)
    (⟨(i 0).val, idx2_lt0 i⟩ : Fin 100000) (⟨(i 1).val, idx2_lt1 i⟩ : Fin 128)

/-- The output with the linear part arranged "transform, scale and aggregate". -/
def layerR : S100000x128.Idx → EReal := fun i =>
  rowOut x0 x3 x4 x5 x6 x7 (Cert.Gcn.convR (srcRow x1) (lands x1) (dinvRow x1) x0 x2)
    (⟨(i 0).val, idx2_lt0 i⟩ : Fin 100000) (⟨(i 1).val, idx2_lt1 i⟩ : Fin 128)

/-- With `x`, the weight and the nodes' factors real-valued the two arrangements give one output. -/
theorem layerK_eq_layerR (hx : ∀ i, ∃ r : ℝ, x0 i = (r : EReal)) (hW : ∀ i, ∃ r : ℝ, x2 i = (r : EReal))
    (hd : ∀ n, ∃ r : ℝ, dinvRow x1 n = (r : EReal)) :
    layerK x0 x1 x2 x3 x4 x5 x6 x7 = layerR x0 x1 x2 x3 x4 x5 x6 x7 := by
  have e : Cert.Gcn.convK (srcRow x1) (lands x1) (dinvRow x1) x0 x2 = Cert.Gcn.convR (srcRow x1) (lands x1) (dinvRow x1) x0 x2 :=
    funext fun n => funext fun c => Cert.Gcn.convK_eq_convR (srcRow x1) (lands x1) (dinvRow x1) x0 x2 hx hW hd n c
  unfold layerK layerR
  rw [e]

end Cert.Layer

end
-- ==== Proof.LibGatherScatter.lean ====
/-
  Row gathers and a row scatter-add, read at an index.

  Three instances of the `gather` / `scatter` operations' dimension numbers that select whole rows of an array by a
  column `idx : [E, 1]` of row numbers, generic in the extents `N` (rows), `C` (columns), `E` (how many row
  numbers) and in the width `w` of the integer words:

  * `gather_rows1_apply`: from `x : [N]`, entry `e` of the result is `x` at row `idx[e, 0]`, read signed and
    clamped into `[0, N − 1]`;
  * `gather_rows2_apply`: from `x : [N, C]`, entry `(e, c)` of the result is `x` at row `idx[e, 0]` (read signed,
    clamped into `[0, N − 1]`) and column `c`;
  * `scatterAdd_rows2_apply`: adding the rows of `upd : [E, C]` into `x : [N, C]`, entry `(n, c)` of the result is
    `x[n, c]` plus the sum of `upd[e, c]` over those `e` whose row number `idx[e, 0]`, read signed and NOT clamped,
    equals `n` (a row number outside `[0, N)` contributes nowhere).
-/
import Idealize.ShloMosaic.PureOps.Ideal
import Idealize.ShloMosaic.PureOps.Ideal.Laws
import Idealize.ShloMosaic.Lib.ValueIdx

noncomputable section

open scoped BigOperators

namespace Cert.GatherScatter

open Idealize.ShloMosaic Idealize.ShloMosaic.ValueIdx

/-! ## A scatter's landing index, for any dimension numbers -/

/-- An update index `j` lands on the operand index `i` exactly when, on every operand axis, the signed start plus
    the window coordinate equals `i`'s coordinate. (The landing index exists only when that sum is inside the
    operand on every axis; a coordinate of `i` always is, so the in-range condition is implied by the equations.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hs a
      have h1 := congrArg Fin.val (congrFun (Option.some.inj hs) a)
      simp only at h1
      have := h a
      omega
    · intro hs
      congr 1
      funext a
      refine Fin.ext ?_
      have := hs a
      simp only
      omega
  · rename_i h
    constructor
    · intro hs; exact absurd hs (by simp)
    · intro hs
      exfalso
      apply h
      intro a
      have := hs a
      have := (i a).isLt
      omega

/-! ## Adding rows `upd : [E, C]` into `x : [N, C]` at the row numbers `idx : [E, 1]`

The scatter's dimension numbers: update_window_dims `[1]` (an update's column is the window), inserted_window_dims
`[0]` (the operand's row axis carries no window), scatter_dims_to_operand_dims `[0]` (the one component of a scatter
index is a row number) and index_vector_dim `1`. Update `(e, c')` lands on row `idx[e, 0]`, read signed and not
clamped, and column `c'`; it is dropped when that row is outside `[0, N)`. -/

/-- Those dimension numbers for an operand `[N, C]`, scatter indices `[E, 1]` and updates `[E, C]`; their conditions
    `wf` are decided on a program's literal shapes. -/
abbrev addDims2 (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N C E w : Nat} (wf : ScatterDims.WF ⟨2, ![N, C]⟩ ⟨2, ![E, 1]⟩ ⟨2, ![E, C]⟩ [1] [0] [0] 1)

/-- On the row axis the start of update `(e, c')` is the row number `idx[e, 0]`, read signed. -/
theorem addDims2_start0 (idx : IVec ⟨2, ![E, 1]⟩ w) (e : Fin E) (c' : Fin C) :
    (addDims2 N C E wf).start (ix2 e c') idx 0 = (idx (ix2 e (0 : Fin 1))).toInt := by
  unfold ScatterDims.start
  rw [dif_pos (show (0 : Fin 2) ∈ (addDims2 N C E wf).scatterDimsToOperandDims from List.mem_singleton.mpr rfl)]
  have hsi : (addDims2 N C E wf).siIdx (ix2 e c') ⟨List.idxOf (0 : Fin 2) (addDims2 N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter indices do not address, the start is `0`. -/
theorem addDims2_start1 (idx : IVec ⟨2, ![E, 1]⟩ w) (e : Fin E) (c' : Fin C) :
    (addDims2 N C E wf).start (ix2 e c') idx 1 = 0 := by
  unfold ScatterDims.start
  rw [dif_neg (show (1 : Fin 2) ∉ ([0] : List (Fin 2)) by decide)]

/-- The row axis is an inserted one: its window coordinate is `0`. -/
theorem addDims2_window0 (e : Fin E) (c' : Fin C) :
    (addDims2 N C E wf).window (ix2 e c') 0 = 0 := by
  unfold ScatterDims.window
  have h0 : (0 : Fin 2) ∉ (addDims2 N C E wf).sKept :=
    show (0 : Fin 2) ∉ (List.finRange 2).filter (· ∉ ([0] : List (Fin 2))) by decide
  rw [dif_neg h0]

/-- The column axis carries the window: its window coordinate is the update's column `c'`. -/
theorem addDims2_window1 (e : Fin E) (c' : Fin C) :
    (addDims2 N C E wf).window (ix2 e c') 1 = c'.val := by
  unfold ScatterDims.window
  have h1 : (1 : Fin 2) ∈ (addDims2 N C E wf).sKept :=
    show (1 : Fin 2) ∈ (List.finRange 2).filter (· ∉ ([0] : List (Fin 2))) by decide
  rw [dif_pos h1]
  rfl

/-- Update `(e, c')` lands on `(n, c)` exactly when the columns agree and the row number `idx[e, 0]`, read signed,
    is `n`. -/
theorem addDims2_resultIdx?_iff (idx : IVec ⟨2, ![E, 1]⟩ w) (e : Fin E) (c' c : Fin C) (n : Fin N) :
    (addDims2 N C E wf).resultIdx? (ix2 e c') idx = some (ix2 n c) ↔
      c' = c ∧ (idx (ix2 e (0 : Fin 1))).toInt = (n.val : Int) := by
  rw [resultIdx?_eq_some_iff, Fin.forall_fin_two, addDims2_start0, addDims2_start1, addDims2_window0, addDims2_window1]
  show (idx (ix2 e (0 : Fin 1))).toInt + ((0 : Nat) : Int) = (n.val : Int) ∧ (0 : Int) + (c'.val : Int) = (c.val : Int) ↔ _
  constructor
  · rintro ⟨h1, h2⟩
    exact ⟨Fin.ext (by omega), by omega⟩
  · rintro ⟨rfl, h2⟩
    exact ⟨by omega, by omega⟩

/-- THE SCATTER-ADD READ AT `(n, c)`: the operand's entry plus the sum of the updates `upd[e, c]` over the `e` whose
    row number `idx[e, 0]`, read signed and not clamped, is `n`. The sum over the update indices `(e, c')` landing on
    `(n, c)` is split by coordinates; for each `e` the inner sum over `c'` has the single term `c' = c`. -/
theorem scatterAdd_rows2_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (addDims2 N C E wf) x idx upd (ix2 n c) =
      x (ix2 n c) + ∑ e ∈ Finset.univ.filter (fun e : Fin E => (idx (ix2 e (0 : Fin 1))).toInt = (n.val : Int)),
        upd (ix2 e c) := by
  unfold Ideal.hostScatterAdd
  congr 1
  rw [Finset.sum_filter, Finset.sum_filter, sum_idx2]
  refine Finset.sum_congr rfl fun e _ => ?_
  simp only [addDims2_resultIdx?_iff]
  by_cases h : (idx (ix2 e (0 : Fin 1))).toInt = (n.val : Int)
  · simp only [h, and_true, if_true]
    exact (Finset.sum_ite_eq' Finset.univ c _).trans (by simp)
  · simp only [h, and_false, if_false]
    exact Finset.sum_const_zero

end Scatter

/-! ## Reading rows of `x : [N, C]` at the row numbers `idx : [E, 1]`

The gather's dimension numbers: offset_dims `[1]` (the result's column axis runs over a slice), collapsed_slice_dims
`[0]` (a slice is one row), start_index_map `[0]` (the one component of a start index is a row number),
index_vector_dim `1`, slice_sizes `[1, C]`. Result element `(e, c)` is `x` at row `idx[e, 0]`, read as a signed integer
and clamped into `[0, N − 1]` (a gather clamps every start index so that the slice stays inside the operand), and
column `c`. -/

section Rows2
variable {α : Type}

/-- Those dimension numbers for an operand `[N, C]`, start indices `[E, 1]` and result `[E, C]`; their conditions `wf`
    are decided on a program's literal shapes. -/
abbrev rowsDims2 (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    column `c`. On the row axis the operand index is the clamped start alone (the axis is collapsed: no offset); on
    the column axis it is the offset `c` alone (the start index does not address it). -/
theorem gather_rows2_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims2 N C E wf) x idx (ix2 e c) =
      x (ix2 ⟨min (idx (ix2 e (0 : Fin 1))).toInt.toNat (N - 1), by omega⟩ c) := by
  unfold Host.gather
  congr 1
  funext a
  refine Fin.ext ?_
  match a with
  | ⟨0, _⟩ =>
    show (rowsDims2 N C E wf).start (ix2 e c) idx 0 + (rowsDims2 N C E wf).batchCoord (ix2 e c) 0
      + (rowsDims2 N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims2 N C E wf).startIndexMap from List.mem_singleton.mpr rfl)]
    have hsi : (rowsDims2 N C E wf).siIdx (ix2 e c) ⟨List.idxOf (0 : Fin 2) (rowsDims2 N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims2 N C E wf).start (ix2 e c) idx 1 + (rowsDims2 N C E wf).batchCoord (ix2 e c) 1
      + (rowsDims2 N C E wf).offCoord (ix2 e c) 1 = c.val
    have hs : (rowsDims2 N C E wf).start (ix2 e c) idx 1 = 0 := by
      unfold GatherDims.start
      rw [dif_neg (show (1 : Fin 2) ∉ ([0] : List (Fin 2)) by decide)]
    have ho : (rowsDims2 N C E wf).offCoord (ix2 e c) 1 = c.val := by
      unfold GatherDims.offCoord
      have h1' : (1 : Fin 2) ∈ (List.finRange 2).filter (· ∉ ([0] ++ [] : List (Fin 2))) := by decide
      have h1 : (1 : Fin 2) ∈ (rowsDims2 N C E wf).sKept := h1'
      rw [dif_pos h1]
      rfl
    rw [GatherDims.batchCoord_eq_zero _ _ _ List.not_mem_nil, hs, ho]
    omega

end Rows2

/-! ## Reading entries of `x : [N]` at the row numbers `idx : [E, 1]`

The same gather of a flat operand: offset_dims `[]`, collapsed_slice_dims `[0]`, start_index_map `[0]`,
index_vector_dim `1`, slice_sizes `[1]`. Result element `e` is `x` at `idx[e, 0]`, read signed and clamped into
`[0, N − 1]`. -/

section Rows1
variable {α : Type}

/-- Those dimension numbers for an operand `[N]`, start indices `[E, 1]` and result `[E]`; their conditions `wf` are
    decided on a program's literal shapes. -/
abbrev rowsDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start index `idx[e, 0]`, read signed and clamped into
    `[0, N − 1]`. The operand's one axis is collapsed, so the operand index is the clamped start alone. -/
theorem gather_rows1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (rowsDims1 N E wf) x idx (ix1 e) =
      x (ix1 ⟨min (idx (ix2 e (0 : Fin 1))).toInt.toNat (N - 1), by omega⟩) := by
  unfold Host.gather
  congr 1
  funext a
  obtain rfl : a = 0 := Subsingleton.elim _ _
  refine Fin.ext ?_
  show (rowsDims1 N E wf).start (ix1 e) idx 0 + (rowsDims1 N E wf).batchCoord (ix1 e) 0
    + (rowsDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowsDims1 N E wf).startIndexMap from List.mem_singleton.mpr rfl)]
  have hsi : (rowsDims1 N E wf).siIdx (ix1 e) ⟨List.idxOf (0 : Fin 1) (rowsDims1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Rows1

/-! ## The same scatter-add as the host operation states it -/

section HostScatter
variable {N C E w : Nat} (wf : ScatterDims.WF ⟨2, ![N, C]⟩ ⟨2, ![E, 1]⟩ ⟨2, ![E, C]⟩ [1] [0] [0] 1)

/-- THE HOST'S SCATTER-ADD READ AT `(n, c)`, on the extended reals: the host's accumulating float scatter is the exact
    sum, so this is `scatterAdd_rows2_apply` stated at the host operation. Stated at generic extents, where passing from
    the host operation to the exact sum is a definitional unfolding; a use at literal extents matches it as it is
    written. -/
theorem Host_scatterAdd_rows2_apply (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (addDims2 N C E wf) x idx upd (ix2 n c) =
      x (ix2 n c) + ∑ e ∈ Finset.univ.filter (fun e : Fin E => (idx (ix2 e (0 : Fin 1))).toInt = (n.val : Int)),
        upd (ix2 e c) :=
  scatterAdd_rows2_apply wf x idx upd n c

end HostScatter

end Cert.GatherScatter

end
-- ==== Proof.KernelValue.lean ====
/-
  The kernel's result, entry by entry, is the layer's output in the arrangement "scale, aggregate, transform".

  The aggregated rows at `(n, k)` are the sum, over the edges landing on `n`, of the scaled row gathered for the edge
  at channel `k`: `x[src e, k] · dinv (src e)` (the zeros they are added into contribute nothing). The factor column
  at `(n, 0)` is `dinv n`; the transposed weight at `(k, c)` is `W[c, k]`; each parameter row at `(0, c)` is the
  parameter at `c`. Substituting these in the fused rows gives the specification's linear part and tail.
-/
import proofs.«163821_j32736240730563_2_alg».proof.Proof.KernelHost
import proofs.«163821_j32736240730563_2_alg».proof.Proof.Layer
import proofs.«163821_j32736240730563_2_alg».proof.Proof.LibGatherScatter
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx
open Cert.ReferenceIdeal.Graph Cert.GatherScatter

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 x6 x7 : (⟨S128, .f32⟩ : BufTy).Contents (Elt Ideal))

/-- The factor column at `(n, 0)` is node `n`'s factor. -/
theorem dcol_apply (n : Fin 100000) : (shapeCast S100000x1 (Cert.ReferenceIdeal.Read.val_main_v14 (F := Ideal) x1) shapeCasts_S100000_S100000x1) (ix2 n (0 : Fin 1)) = dinvRow x1 n := by
  unfold dinvRow
  refine shapeCast_apply _ _ (ix2 n (0 : Fin 1)) (ix1 n) ?_
  rw [Shape.rowMajor_val_one, Shape.rowMajor_val_two]
  show n.val = n.val * 1 + 0
  omega

/-- The transposed weight at `(k, c)` is the weight at `(c, k)`. -/
theorem wt_apply (k c : Fin 128) : (transpose S128x128 [1, 0] x2 transposes_S128x128_S128x128_1_0) (ix2 k c) = x2 (ix2 c k) :=
  transpose_apply [1, 0] x2 transposes_S128x128_S128x128_1_0 (ix2 k c) (ix2 c k) (fun b => by
    match b with
    | ⟨0, _⟩ => rfl
    | ⟨1, _⟩ => rfl)

/-- A parameter reshaped to a `[1, 128]` row, at `(0, c)`, is the parameter at `c`. -/
theorem row_apply (x : (⟨S128, .f32⟩ : BufTy).Contents (Elt Ideal)) (c : Fin 128) : (shapeCast S1x128 x shapeCasts_S128_S1x128) (ix2 (0 : Fin 1) c) = x (ix1 c) := by
  refine shapeCast_apply _ _ (ix2 (0 : Fin 1) c) (ix1 c) ?_
  rw [Shape.rowMajor_val_one, Shape.rowMajor_val_two]
  show c.val = 0 * 128 + c.val
  omega

/-- The scaled rows at `(r, k)`. -/
theorem scaled_apply (r : Fin 100000) (k : Fin 128) : scaled x0 (shapeCast S100000x1 (Cert.ReferenceIdeal.Read.val_main_v14 (F := Ideal) x1) shapeCasts_S100000_S100000x1) (ix2 r k) = x0 (ix2 r k) * dinvRow x1 r := by
  show x0 (ix2 r k) * (shapeCast S100000x1 (Cert.ReferenceIdeal.Read.val_main_v14 (F := Ideal) x1) shapeCasts_S100000_S100000x1) (ix2 r (0 : Fin 1)) = _
  rw [dcol_apply]

/-- The aggregated rows at `(n, k)`: the sum over the edges landing on `n` of the scaled source rows at `k`. -/
theorem agg_apply (n : Fin 100000) (k : Fin 128) :
    (Host.scatterAdd scatter_S100000x128_S1700000x1_S1700000x128_1_0_0_1
        (broadcastInDim S100000x128 ![] bcast_S_S100000x128 (constant (F := Ideal) S_ .f32 0x00000000#32))
        (Cert.ReferenceIdeal.Read.val_main_v43 (F := Ideal) x1)
        (Host.gather gather_S100000x128_S1700000x1_S1700000x128_1_0_n_n_0_1_1128 (scaled x0 (shapeCast S100000x1 (Cert.ReferenceIdeal.Read.val_main_v14 (F := Ideal) x1) shapeCasts_S100000_S100000x1))
          (Cert.ReferenceIdeal.Read.val_main_v37 (F := Ideal) x1))) (ix2 n k)
      = ∑ e ∈ lands x1 n, x0 (ix2 (srcRow x1 e) k) * dinvRow x1 (srcRow x1 e) := by
  have hd : scatter_S100000x128_S1700000x1_S1700000x128_1_0_0_1
      = addDims2 100000 128 1700000 Facts₀.scatter_S100000x128_S1700000x1_S1700000x128_1_0_0_1_wf := rfl
  have hg : gather_S100000x128_S1700000x1_S1700000x128_1_0_n_n_0_1_1128
      = rowsDims2 100000 128 1700000 Facts₀.gather_S100000x128_S1700000x1_S1700000x128_1_0_n_n_0_1_1128_wf := rfl
  rw [hd, hg, Host_scatterAdd_rows2_apply]
  have hz : (broadcastInDim S100000x128 ![] bcast_S_S100000x128 (constant (F := Ideal) S_ .f32 0x00000000#32) : S100000x128.Idx → EReal) (ix2 n k) = 0 :=
    Ideal.ofBits_zero_f32
  rw [hz, zero_add]
  refine Finset.sum_congr rfl fun e _ => ?_
  rw [gather_rows2_apply (by decide)]
  exact scaled_apply x0 x1 (srcRow x1 e) k

/-- The row-wise tail depends on its six rows only through their entries. -/
theorem tail_congr {h h' xr xr' g1 g1' b1 b1' g2 g2' b2 b2' : Fin 128 → EReal} (eh : ∀ c, h c = h' c) (ex : ∀ c, xr c = xr' c)
    (e1 : ∀ c, g1 c = g1' c) (e2 : ∀ c, b1 c = b1' c) (e3 : ∀ c, g2 c = g2' c) (e4 : ∀ c, b2 c = b2' c) (c : Fin 128) :
    Cert.Gcn.tail h xr g1 b1 g2 b2 c = Cert.Gcn.tail h' xr' g1' b1' g2' b2' c := by
  rw [funext eh, funext ex, funext e1, funext e2, funext e3, funext e4]

/-- The fused rows of the kernel's buffers are the layer's output, linear part arranged "scale, aggregate,
    transform". -/
theorem fused_eq_layerK :
    fusedRows (Host.scatterAdd scatter_S100000x128_S1700000x1_S1700000x128_1_0_0_1
        (broadcastInDim S100000x128 ![] bcast_S_S100000x128 (constant (F := Ideal) S_ .f32 0x00000000#32))
        (Cert.ReferenceIdeal.Read.val_main_v43 (F := Ideal) x1)
        (Host.gather gather_S100000x128_S1700000x1_S1700000x128_1_0_n_n_0_1_1128 (scaled x0 (shapeCast S100000x1 (Cert.ReferenceIdeal.Read.val_main_v14 (F := Ideal) x1) shapeCasts_S100000_S100000x1))
          (Cert.ReferenceIdeal.Read.val_main_v37 (F := Ideal) x1)))
      (shapeCast S100000x1 (Cert.ReferenceIdeal.Read.val_main_v14 (F := Ideal) x1) shapeCasts_S100000_S100000x1) x0 (transpose S128x128 [1, 0] x2 transposes_S128x128_S128x128_1_0) (shapeCast S1x128 x3 shapeCasts_S128_S1x128) (shapeCast S1x128 x4 shapeCasts_S128_S1x128) (shapeCast S1x128 x5 shapeCasts_S128_S1x128) (shapeCast S1x128 x6 shapeCasts_S128_S1x128) (shapeCast S1x128 x7 shapeCasts_S128_S1x128)
      = Cert.Layer.layerK x0 x1 x2 x3 x4 x5 x6 x7 := by
  funext i
  unfold fusedRows Cert.Layer.layerK Cert.Layer.rowOut Cert.Gcn.convK
  refine tail_congr (fun c' => ?_) (fun _ => rfl) (fun c' => row_apply x4 c') (fun c' => row_apply x5 c')
    (fun c' => row_apply x6 c') (fun c' => row_apply x7 c') _
  rw [row_apply]
  refine congrArg (· + (x3 (ix1 c') : EReal)) (Finset.sum_congr rfl fun k _ => ?_)
  rw [agg_apply, dcol_apply, wt_apply]

end Cert.KernelIdeal.Hand

end
-- ==== Proof.RefRows.lean ====
/-
  The reference program read one element at a time.

  Its result at node `n`, channel `c` depends only on row `n` of the linear part `conv + bias` and row `n` of the
  input: every later stage is either pointwise, a row sum over the 128 channels, or a broadcast of a per-row or
  per-channel value. Reading the stages at `(n, c)` gives the shared row-wise tail of the specification: `max · 0`,
  a layer normalisation, the residual `x + ·`, and a second layer normalisation.
-/
import proofs.«163821_j32736240730563_2_alg».proof.Proof.RefRead
import proofs.«163821_j32736240730563_2_alg».proof.Proof.Spec
import Idealize.ShloMosaic.Lib.ValueIdx
import Idealize.ShloMosaic.PureOps.Ideal.Laws
import proofs.«163821_j32736240730563_2_alg».proof.Proof.Graph
import proofs.«163821_j32736240730563_2_alg».proof.Proof.LibGatherScatter

noncomputable section

open scoped BigOperators

namespace Cert.ReferenceIdeal.RefRows

open Cert.ReferenceIdeal Cert.ReferenceIdeal.Read Idealize.ShloMosaic Idealize.ShloMosaic.ValueIdx

/-- Two rank-2 indices with the same two coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 x6 x7 : (⟨S128, .f32⟩ : BufTy).Contents (Elt Ideal))

/-! ## The row-wise tail -/

/-- `max · 0` at `(n, k)`: the second operand is the zero literal broadcast. -/
theorem relu_at (n : Fin 100000) (k : Fin 128) :
    val_main_v48 (F := Ideal) x0 x1 x2 x3 (ix2 n k) = max (val_main_v47 (F := Ideal) x0 x1 x2 x3 (ix2 n k)) 0 := by
  rw [val_main_v48_apply, val_main_call1_v0_apply, val_main_call1_cst_apply]
  simp only [Ideal.maximumf_def, Ideal.ofBits_def, Ideal.ofBits_zero_f32]

/-- The mean of row `n` of the normalisation's input: the row sum over the 128 channels (starting from the zero
    literal) divided by the literal 128; the keep-dims column has one entry per row. -/
theorem mean1 (n : Fin 100000) (j : Fin 1) :
    val_main_v52 (F := Ideal) x0 x1 x2 x3 (ix2 n j) = Cert.Gcn.mean (fun k => val_main_v48 (F := Ideal) x0 x1 x2 x3 (ix2 n k)) := by
  rw [val_main_v52_apply, val_main_v50_apply, val_main_v49_apply, val_main_v51_apply, val_main_cst_10_apply, val_main_cst_9_apply]
  simp only [Ideal.hostDivf_def, Ideal.ofBits_def, Ideal.ofBits_zero_f32, zero_add]
  refine congrArg (fun s => Ideal.div s Cert.Gcn.c128) (Finset.sum_congr rfl fun k _ => ?_)
  rw [show idx_main_v49 (idx_main_v50 (ix2 n j)) k = ix2 n k from by idx2]

/-- The variance of row `n`: the mean of the squared deviations from the row's mean. -/
theorem var1 (n : Fin 100000) (j : Fin 1) :
    val_main_v59 (F := Ideal) x0 x1 x2 x3 (ix2 n j)
      = Cert.Gcn.mean (fun k => (val_main_v48 (F := Ideal) x0 x1 x2 x3 (ix2 n k) - Cert.Gcn.mean (fun k => val_main_v48 (F := Ideal) x0 x1 x2 x3 (ix2 n k)))
          * (val_main_v48 (F := Ideal) x0 x1 x2 x3 (ix2 n k) - Cert.Gcn.mean (fun k => val_main_v48 (F := Ideal) x0 x1 x2 x3 (ix2 n k)))) := by
  rw [val_main_v59_apply, val_main_v57_apply, val_main_v56_apply, val_main_v58_apply, val_main_cst_12_apply, val_main_cst_11_apply]
  simp only [Ideal.hostDivf_def, Ideal.ofBits_def, Ideal.ofBits_zero_f32, zero_add]
  refine congrArg (fun s => Ideal.div s Cert.Gcn.c128) (Finset.sum_congr rfl fun k _ => ?_)
  rw [show idx_main_v56 (idx_main_v57 (ix2 n j)) k = ix2 n k from by idx2,
    val_main_v55_apply, val_main_v54_apply, val_main_v53_apply,
    show idx_main_v53 (ix2 n k) = ix2 n (0 : Fin 1) from by idx2, mean1]
  simp only [Ideal.mulf_def, Ideal.subf_def]

/-- The layer normalisation at `(n, c)`: `(v c − μ) · (σ² + ε)^(−1/2) · γ c + β c` with `v` row `n` of its input. -/
theorem ln1 (n : Fin 100000) (c : Fin 128) :
    val_main_v72 (F := Ideal) x0 x1 x2 x3 x4 x5 (ix2 n c)
      = Cert.Gcn.lnorm (fun k => val_main_v48 (F := Ideal) x0 x1 x2 x3 (ix2 n k)) (fun k => x4 (ix1 k)) (fun k => x5 (ix1 k)) c := by
  rw [val_main_v72_apply, val_main_v69_apply, val_main_v66_apply, val_main_v61_apply, val_main_v60_apply,
    val_main_v65_apply, val_main_v64_apply, val_main_v63_apply, val_main_v62_apply, val_main_cst_13_apply,
    val_main_v68_apply, val_main_v67_apply, val_main_v71_apply, val_main_v70_apply,
    show idx_main_v60 (ix2 n c) = ix2 n (0 : Fin 1) from by idx2,
    show idx_main_v65 (ix2 n c) = ix2 n (0 : Fin 1) from by idx2,
    show idx_main_v67 (idx_main_v68 (ix2 n c)) = ix1 c from by idx1,
    show idx_main_v70 (idx_main_v71 (ix2 n c)) = ix1 c from by idx1,
    mean1, var1]
  simp only [Ideal.addf_def, Ideal.mulf_def, Ideal.subf_def, Ideal.hostUnary_rsqrt_def, Ideal.ofBits_def]
  rfl

/-- The residual at `(n, c)`: the input plus the first normalisation of the rectified row. -/
theorem res_at (n : Fin 100000) (c : Fin 128) :
    val_main_v73 (F := Ideal) x0 x1 x2 x3 x4 x5 (ix2 n c)
      = x0 (ix2 n c) + Cert.Gcn.lnorm (fun k => max (val_main_v47 (F := Ideal) x0 x1 x2 x3 (ix2 n k)) 0)
          (fun k => x4 (ix1 k)) (fun k => x5 (ix1 k)) c := by
  rw [val_main_v73_apply, ln1]
  simp only [Ideal.addf_def, relu_at]

/-- The mean of row `n` of the normalisation's input: the row sum over the 128 channels (starting from the zero
    literal) divided by the literal 128; the keep-dims column has one entry per row. -/
theorem mean2 (n : Fin 100000) (j : Fin 1) :
    val_main_v77 (F := Ideal) x0 x1 x2 x3 x4 x5 (ix2 n j) = Cert.Gcn.mean (fun k => val_main_v73 (F := Ideal) x0 x1 x2 x3 x4 x5 (ix2 n k)) := by
  rw [val_main_v77_apply, val_main_v75_apply, val_main_v74_apply, val_main_v76_apply, val_main_cst_15_apply, val_main_cst_14_apply]
  simp only [Ideal.hostDivf_def, Ideal.ofBits_def, Ideal.ofBits_zero_f32, zero_add]
  refine congrArg (fun s => Ideal.div s Cert.Gcn.c128) (Finset.sum_congr rfl fun k _ => ?_)
  rw [show idx_main_v74 (idx_main_v75 (ix2 n j)) k = ix2 n k from by idx2]

/-- The variance of row `n`: the mean of the squared deviations from the row's mean. -/
theorem var2 (n : Fin 100000) (j : Fin 1) :
    val_main_v84 (F := Ideal) x0 x1 x2 x3 x4 x5 (ix2 n j)
      = Cert.Gcn.mean (fun k => (val_main_v73 (F := Ideal) x0 x1 x2 x3 x4 x5 (ix2 n k) - Cert.Gcn.mean (fun k => val_main_v73 (F := Ideal) x0 x1 x2 x3 x4 x5 (ix2 n k)))
          * (val_main_v73 (F := Ideal) x0 x1 x2 x3 x4 x5 (ix2 n k) - Cert.Gcn.mean (fun k => val_main_v73 (F := Ideal) x0 x1 x2 x3 x4 x5 (ix2 n k)))) := by
  rw [val_main_v84_apply, val_main_v82_apply, val_main_v81_apply, val_main_v83_apply, val_main_cst_17_apply, val_main_cst_16_apply]
  simp only [Ideal.hostDivf_def, Ideal.ofBits_def, Ideal.ofBits_zero_f32, zero_add]
  refine congrArg (fun s => Ideal.div s Cert.Gcn.c128) (Finset.sum_congr rfl fun k _ => ?_)
  rw [show idx_main_v81 (idx_main_v82 (ix2 n j)) k = ix2 n k from by idx2,
    val_main_v80_apply, val_main_v79_apply, val_main_v78_apply,
    show idx_main_v78 (ix2 n k) = ix2 n (0 : Fin 1) from by idx2, mean2]
  simp only [Ideal.mulf_def, Ideal.subf_def]

/-- The layer normalisation at `(n, c)`: `(v c − μ) · (σ² + ε)^(−1/2) · γ c + β c` with `v` row `n` of its input. -/
theorem ln2 (n : Fin 100000) (c : Fin 128) :
    val_main_v97 (F := Ideal) x0 x1 x2 x3 x4 x5 x6 x7 (ix2 n c)
      = Cert.Gcn.lnorm (fun k => val_main_v73 (F := Ideal) x0 x1 x2 x3 x4 x5 (ix2 n k)) (fun k => x6 (ix1 k)) (fun k => x7 (ix1 k)) c := by
  rw [val_main_v97_apply, val_main_v94_apply, val_main_v91_apply, val_main_v86_apply, val_main_v85_apply,
    val_main_v90_apply, val_main_v89_apply, val_main_v88_apply, val_main_v87_apply, val_main_cst_18_apply,
    val_main_v93_apply, val_main_v92_apply, val_main_v96_apply, val_main_v95_apply,
    show idx_main_v85 (ix2 n c) = ix2 n (0 : Fin 1) from by idx2,
    show idx_main_v90 (ix2 n c) = ix2 n (0 : Fin 1) from by idx2,
    show idx_main_v92 (idx_main_v93 (ix2 n c)) = ix1 c from by idx1,
    show idx_main_v95 (idx_main_v96 (ix2 n c)) = ix1 c from by idx1,
    mean2, var2]
  simp only [Ideal.addf_def, Ideal.mulf_def, Ideal.subf_def, Ideal.hostUnary_rsqrt_def, Ideal.ofBits_def]
  rfl

/-- THE TAIL: the result at `(n, c)` is the specification's row-wise tail of row `n` of `conv + bias` and row `n` of
    the input. -/
theorem tail_row (n : Fin 100000) (c : Fin 128) :
    val_main_v97 (F := Ideal) x0 x1 x2 x3 x4 x5 x6 x7 (ix2 n c)
      = Cert.Gcn.tail (fun c' => val_main_v47 (F := Ideal) x0 x1 x2 x3 (ix2 n c')) (fun c' => x0 (ix2 n c'))
          (fun c' => x4 (ix1 c')) (fun c' => x5 (ix1 c')) (fun c' => x6 (ix1 c')) (fun c' => x7 (ix1 c')) c := by
  rw [ln2]
  simp only [res_at]
  rfl

/-! ## The linear part

`conv + bias` at `(n, c)`: the scatter-add sums, over the edges landing on row `n`, the message's channel `c`; a
message is the gathered row of the transformed features `x · Wᵀ` scaled by the two gathered inverse square-root degrees. -/

open Cert.ReferenceIdeal.Graph

/-- The program's scatter record is the row scatter-add's. -/
theorem scatter_rec : scatter_S100000x128_S1700000x1_S1700000x128_1_0_0_1
    = Cert.GatherScatter.addDims2 100000 128 1700000 Facts₀.scatter_S100000x128_S1700000x1_S1700000x128_1_0_0_1_wf := rfl
/-- The program's gather record for the feature rows is the row gather's. -/
theorem gather2_rec : gather_S100000x128_S1700000x1_S1700000x128_1_0_n_n_0_1_1128
    = Cert.GatherScatter.rowsDims2 100000 128 1700000 Facts₀.gather_S100000x128_S1700000x1_S1700000x128_1_0_n_n_0_1_1128_wf := rfl
/-- The program's gather record for the degrees is the flat gather's. -/
theorem gather1_rec : gather_S100000_S1700000x1_S1700000_n_0_n_n_0_1_1
    = Cert.GatherScatter.rowsDims1 100000 1700000 Facts₀.gather_S100000_S1700000x1_S1700000_n_0_n_n_0_1_1_wf := rfl

/-- The bias is broadcast along the rows: `(conv + bias)[n, c] = conv[n, c] + bias[c]`. -/
theorem bias_at (n : Fin 100000) (c : Fin 128) :
    val_main_v47 (F := Ideal) x0 x1 x2 x3 (ix2 n c) = val_main_v44 (F := Ideal) x0 x1 x2 (ix2 n c) + x3 (ix1 c) := by
  rw [val_main_v47_apply, val_main_v46_apply, val_main_v45_apply,
    show idx_main_v45 (idx_main_v46 (ix2 n c)) = ix1 c from by idx1]
  rfl

/-- The host's scatter-add at the ideal instance is the exact scatter-add; stated at generic extents. -/
theorem host_scatter_rows2 {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (Cert.GatherScatter.addDims2 N C E wf) x idx upd (ix2 n c)
      = x (ix2 n c) + ∑ e ∈ Finset.univ.filter (fun e : Fin E => (idx (ix2 e (0 : Fin 1))).toInt = (n.val : Int)),
          upd (ix2 e c) :=
  Cert.GatherScatter.scatterAdd_rows2_apply wf x idx upd n c

/-- The scatter-add at `(n, c)`: its operand is the zero literal, so the entry is the sum, over the edges landing on
    row `n`, of the message's channel `c`. -/
theorem scatter_at (n : Fin 100000) (c : Fin 128) :
    val_main_v44 (F := Ideal) x0 x1 x2 (ix2 n c) = ∑ e ∈ lands x1 n, val_main_v41 (F := Ideal) x0 x1 x2 (ix2 e c) := by
  unfold val_main_v44
  rw [scatter_rec, host_scatter_rows2, val_main_v42_apply, val_main_cst_8_apply]
  simp only [Ideal.ofBits_def, Ideal.ofBits_zero_f32, zero_add]
  rfl

/-- The transformed features: `h[r, c] = ∑ k, x[r, k] · W[c, k]` (the weight enters transposed). -/
theorem h_at (r : Fin 100000) (c : Fin 128) :
    val_main_v31 (F := Ideal) x0 x2 (ix2 r c) = ∑ k : Fin 128, x0 (ix2 r k) * x2 (ix2 c k) := by
  rw [val_main_v31_apply]
  refine Finset.sum_congr rfl fun k _ => ?_
  rw [val_main_v30_apply, show lidx_main_v31 (ix2 r c) k = ix2 r k from by idx2,
    show idx_main_v30 (ridx_main_v31 (ix2 r c) k) = ix2 c k from by idx2]

/-- The start indices of the two gathers from the source words are the same array: the same normalisation of the
    same words. -/
theorem v20_eq_v37 : val_main_v20 (F := Ideal) x1 = val_main_v37 (F := Ideal) x1 := rfl

/-- The row a destination word names once normalised (a negative word shifted up by the node count), read signed and
    clamped into the node range. -/
def dstRow (e : Fin 1700000) : Fin 100000 :=
  ⟨min (val_main_v27 (F := Ideal) x1 (ix2 e (0 : Fin 1))).toInt.toNat 99999, by omega⟩

/-- The degree factor gathered at an edge's source. -/
theorem src_dinv_at (e : Fin 1700000) : val_main_v21 (F := Ideal) x1 (ix1 e) = dinvRow x1 (srcRow x1 e) :=
  (Cert.GatherScatter.gather_rows1_apply (N := 100000) (E := 1700000) (by decide)
    Facts₀.gather_S100000_S1700000x1_S1700000_n_0_n_n_0_1_1_wf (val_main_v14 (F := Ideal) x1) (val_main_v20 (F := Ideal) x1) e).trans
    (by rw [v20_eq_v37]; rfl)

/-- The degree factor gathered at an edge's destination. -/
theorem dst_dinv_at (e : Fin 1700000) : val_main_v28 (F := Ideal) x1 (ix1 e) = dinvRow x1 (dstRow x1 e) :=
  (Cert.GatherScatter.gather_rows1_apply (N := 100000) (E := 1700000) (by decide)
    Facts₀.gather_S100000_S1700000x1_S1700000_n_0_n_n_0_1_1_wf (val_main_v14 (F := Ideal) x1) (val_main_v27 (F := Ideal) x1) e).trans rfl

/-- The gathered row of the transformed features at an edge. -/
theorem msg_h_at (e : Fin 1700000) (c : Fin 128) :
    val_main_v38 (F := Ideal) x0 x1 x2 (ix2 e c) = ∑ k : Fin 128, x0 (ix2 (srcRow x1 e) k) * x2 (ix2 c k) :=
  (Cert.GatherScatter.gather_rows2_apply (N := 100000) (C := 128) (E := 1700000) (by decide)
    Facts₀.gather_S100000x128_S1700000x1_S1700000x128_1_0_n_n_0_1_1128_wf (val_main_v31 (F := Ideal) x0 x2)
    (val_main_v37 (F := Ideal) x1) e c).trans (h_at x0 x2 (srcRow x1 e) c)

/-- The edge's normalisation factor, broadcast along the channels. -/
theorem norm_at (e : Fin 1700000) (c : Fin 128) :
    val_main_v40 (F := Ideal) x1 (ix2 e c) = dinvRow x1 (srcRow x1 e) * dinvRow x1 (dstRow x1 e) := by
  rw [val_main_v40_apply, val_main_v39_apply, val_main_v29_apply,
    show idx_main_v39 (idx_main_v40 (ix2 e c)) = ix1 e from by idx1, src_dinv_at, dst_dinv_at]
  rfl

/-- The message of edge `e` at channel `c`. -/
theorem msg_at (e : Fin 1700000) (c : Fin 128) :
    val_main_v41 (F := Ideal) x0 x1 x2 (ix2 e c)
      = (∑ k : Fin 128, x0 (ix2 (srcRow x1 e) k) * x2 (ix2 c k)) * (dinvRow x1 (srcRow x1 e) * dinvRow x1 (dstRow x1 e)) := by
  rw [val_main_v41_apply, msg_h_at, norm_at]
  rfl

/-- A select on "the word is negative, read signed" takes its second branch at a word that is not negative. -/
theorem select_slt_zero (d a : BitVec 32) (h : 0 ≤ d.toInt) : Scalar.select (IntOp.cmpi .slt d 0#32) a d = d := by
  have hlt : d.slt 0#32 = false := by
    simp only [BitVec.slt, BitVec.toInt_zero, decide_eq_false_iff_not, Int.not_lt]
    exact h
  show (if BitVec.ofBool (d.slt 0#32) = 1 then _ else _) = _
  rw [hlt]
  rfl

/-- An edge landing on row `n` has the destination word `n`, which is not negative: normalising leaves it alone and
    clamping too, so the degree factor gathered at its destination is row `n`'s. -/
theorem dstRow_of_lands {n : Fin 100000} {e : Fin 1700000} (he : e ∈ lands x1 n) : dstRow x1 e = n := by
  have h : (val_main_v43 (F := Ideal) x1 (ix2 e (0 : Fin 1))).toInt = (n.val : Int) := (Finset.mem_filter.mp he).2
  rw [val_main_v43_apply] at h
  refine Fin.ext ?_
  show min (val_main_v27 (F := Ideal) x1 (ix2 e (0 : Fin 1))).toInt.toNat 99999 = n.val
  rw [val_main_v27_apply, val_main_v26_apply, val_main_v23_apply, val_main_v22_apply, val_main_c_4_apply,
    show idx_main_v27 (ix2 e (0 : Fin 1)) = idx_main_v43 (ix2 e (0 : Fin 1)) from rfl]
  generalize val_main_v6 (F := Ideal) x1 (idx_main_v43 (ix2 e (0 : Fin 1))) = d at h ⊢
  generalize val_main_v25 (F := Ideal) x1 (idx_main_v43 (ix2 e (0 : Fin 1))) = a
  rw [select_slt_zero d a (by omega)]
  have := n.isLt
  omega

/-- THE LINEAR PART: `conv + bias` at `(n, c)` is the specification's transform-then-aggregate arrangement over the graph
    read off the edge index, plus the bias. -/
theorem conv_row (n : Fin 100000) (c : Fin 128) :
    val_main_v47 (F := Ideal) x0 x1 x2 x3 (ix2 n c)
      = Cert.Gcn.convR (srcRow x1) (lands x1) (dinvRow x1) x0 x2 n c + x3 (ix1 c) := by
  rw [bias_at, scatter_at]
  unfold Cert.Gcn.convR
  refine congrArg (fun s => s + x3 (ix1 c)) (Finset.sum_congr rfl fun e he => ?_)
  rw [msg_at, dstRow_of_lands x1 he]

end Cert.ReferenceIdeal.RefRows

end
-- ==== Proof.RefValue.lean ====
/-
  The reference program's result is the layer's output in the arrangement "transform, scale and aggregate".

  At `(n, c)` its result is the row-wise tail of its linear part's row `n` plus the bias, of the row `x[n,·]` and of
  the parameters; and its linear part at `(n, c')` is the sum over the edges landing on `n` of the transformed source
  row at `c'` times the product of the two nodes' factors.
-/
import proofs.«163821_j32736240730563_2_alg».proof.Proof.RefRows
import proofs.«163821_j32736240730563_2_alg».proof.Proof.Layer

noncomputable section

namespace Cert.ReferenceIdeal.RefValue

open Cert.ReferenceIdeal Cert.ReferenceIdeal.Read Cert.ReferenceIdeal.Graph Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 x6 x7 : (⟨S128, .f32⟩ : BufTy).Contents (Elt Ideal))

/-- The reference's result, as one function of the arguments. -/
theorem ref_eq_layerR : val_main_v97 (F := Ideal) x0 x1 x2 x3 x4 x5 x6 x7 = Cert.Layer.layerR x0 x1 x2 x3 x4 x5 x6 x7 := by
  funext i
  obtain ⟨n, c, rfl⟩ : ∃ (n : Fin 100000) (c : Fin 128), i = ix2 n c := ⟨i 0, i 1, eq_ix2 i⟩
  rw [Cert.ReferenceIdeal.RefRows.tail_row]
  unfold Cert.Layer.layerR Cert.Layer.rowOut
  simp only [Cert.ReferenceIdeal.RefRows.conv_row]

end Cert.ReferenceIdeal.RefValue

end
-- ==== Proof.Finite.lean ====
/-
  Finiteness of the float inputs.

  The printed precondition says, of each float argument array `a`, that `|a| < +∞` holds at every entry (an "all" over
  the array of comparisons), and takes the conjunction over the arrays. On the extended reals `|a| = max a (−a)`, and
  `max a (−a) < ⊤` excludes both `⊤` and `⊥`: the entry is a real number. That is what the algebra joining the two
  arrangements of the layer needs, since distributivity fails at `±∞`.
-/
import proofs.«163821_j32736240730563_2_alg».proof.Pre_finite_inputs
import Idealize.ShloMosaic.PureOps.Ideal
import Idealize.ShloMosaic.Lib.ValueIdx
import Idealize.ShloMosaic.Lib.ReduceAll

noncomputable section

open scoped BigOperators

namespace Cert.Finite

open Idealize.ShloMosaic Idealize.ShloMosaic.ValueIdx
open Cert.Pre_finite_inputs

/-- The scalar shape has one index. -/
instance : Subsingleton S_.Idx := ⟨fun a b => funext fun d => d.elim0⟩

/-- The float word `0x7F800000` reads as `+∞`. -/
theorem ofBits_inf : Ideal.ofBits .f32 0x7F800000#32 = ⊤ := by simp [Ideal.ofBits, Ideal.ieee]

/-- An extended real whose absolute value `max x (−x)` compares below `+∞` is a real number: `⊤` fails the
    comparison itself and `⊥` fails it through `−⊥ = ⊤`. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    unfold Ideal.cmp at h
    by_contra hn
    simp [hn] at h
  induction x using EReal.rec with
  | bot => simp at hlt
  | coe r => exact ⟨r, rfl⟩
  | top => simp at hlt

section Pre
variable [Facts]
variable (x0 : FVec Ideal S100000x128 .f32) (x1 : IVec S2x1600000 32) (x2 : FVec Ideal S128x128 .f32)
  (x3 x4 x5 x6 x7 : FVec Ideal S128 .f32)

/-- Under the printed precondition every entry of the `[100000, 128]` array and of the `[128, 128]` array is a real
    number. The precondition's value at the one scalar index is a conjunction of seven "all" reductions, one per float
    array; the two for these arrays are its innermost pair. Each says the comparison `|a| < +∞` is true at every
    entry. -/
theorem real_of_pre (h : fn (F := Ideal) x0 x1 x2 x3 x4 x5 x6 x7 = fun _ => 1#1) :
    (∀ i, ∃ r : ℝ, x0 i = (r : EReal)) ∧ (∀ i, ∃ r : ℝ, x2 i = (r : EReal)) := by
  have h0 := congrFun h ix0
  dsimp only [fn, fn_part1] at h0
  have a6 := (IntOp.andi_eq_one.1 h0).1
  have a5 := (IntOp.andi_eq_one.1 a6).1
  have a4 := (IntOp.andi_eq_one.1 a5).1
  have a3 := (IntOp.andi_eq_one.1 a4).1
  have a2 := (IntOp.andi_eq_one.1 a3).1
  obtain ⟨e0, e2⟩ := IntOp.andi_eq_one.1 a2
  exact ⟨fun i => real_of_abs_lt_inf (x0 i) (Host.reduce_andi_all _ _ _ _ _ e0 i),
    fun i => real_of_abs_lt_inf (x2 i) (Host.reduce_andi_all _ _ _ _ _ e2 i)⟩

end Pre

end Cert.Finite

end
-- ==== Proof.FiniteDinv.lean ====
/-
  Finiteness of a node's inverse square-root degree.

  A node's degree is a scatter-add of the literal `1.0` into the literal `0.0`: zero plus a finite sum of ones, a real
  number whatever the finite set of landing edges is. The node's factor selects, on `degree > 0`, between the inverse
  square root of the degree and the literal `0.0`: the inverse square root of a positive real `r` is the real
  `(√r)⁻¹`, and the other branch is zero (it also covers degree `0`, where the inverse square root would be `+∞`).
  So the factor is a real number, which the algebra joining the two arrangements of the layer needs: distributivity
  fails at `±∞`.
-/
import proofs.«163821_j32736240730563_2_alg».proof.Proof.Graph
import Idealize.ShloMosaic.PureOps.Ideal
import Idealize.ShloMosaic.PureOps.Ideal.Laws
import Idealize.ShloMosaic.Lib.ValueIdx

noncomputable section

open scoped BigOperators

namespace Cert.Finite

open Idealize.ShloMosaic Idealize.ShloMosaic.ValueIdx
open Cert.ReferenceIdeal Cert.ReferenceIdeal.Read

/-- A finite sum of extended reals that are all real numbers is a real number. -/
theorem sum_real {ι : Type*} (S : Finset ι) (f : ι → EReal) (hf : ∀ j, ∃ r : ℝ, f j = (r : EReal)) :
    ∃ r : ℝ, ∑ j ∈ S, f j = (r : EReal) := by
  classical
  induction S using Finset.induction_on with
  | empty => exact ⟨0, by simp⟩
  | insert a S ha ih =>
    obtain ⟨r, hr⟩ := ih
    obtain ⟨q, hq⟩ := hf a
    exact ⟨q + r, by rw [Finset.sum_insert ha, hq, hr, EReal.coe_add]⟩

/-- An accumulating scatter of real updates into a real operand is real at every index: the operand's entry plus a
    finite sum of updates. -/
theorem hostScatterAdd_real {s si su : Shape} (d : ScatterDims s si su) {w : Nat} (x : s.Idx → EReal)
    (idx : IVec si w) (upd : su.Idx → EReal) (hx : ∀ i, ∃ r : ℝ, x i = (r : EReal))
    (hu : ∀ j, ∃ r : ℝ, upd j = (r : EReal)) (i : s.Idx) :
    ∃ r : ℝ, Ideal.hostScatterAdd d x idx upd i = (r : EReal) := by
  unfold Ideal.hostScatterAdd
  obtain ⟨a, ha⟩ := hx i
  obtain ⟨b, hb⟩ := sum_real (Finset.univ.filter (fun j => d.resultIdx? j idx = some i)) upd hu
  exact ⟨a + b, by rw [ha, hb, EReal.coe_add]⟩

/-- The float word `0x3F800000` reads as the real number `1`. -/
theorem ofBits_one : Ideal.ofBits .f32 0x3F800000#32 = ((1 : ℝ) : EReal) := by
  simp [Ideal.ofBits, Ideal.ieee, -EReal.coe_mul]; norm_num

/-- The float word `0` reads as the real number `0`. -/
theorem ofBits_zero : Ideal.ofBits .f32 0x00000000#32 = ((0 : ℝ) : EReal) := by
  simp [Ideal.ofBits, Ideal.ieee]

/-- Selecting, on `deg > 0`, between the inverse square root of a real `deg` and zero gives a real number. -/
theorem select_rsqrt_real (deg : EReal) (hdeg : ∃ r : ℝ, deg = (r : EReal)) :
    ∃ q : ℝ, Scalar.select (Ideal.cmp .ogt deg (Ideal.ofBits .f32 0x00000000#32)) (Ideal.rsqrt deg)
      (Ideal.ofBits .f32 0x00000000#32) = (q : EReal) := by
  obtain ⟨r, rfl⟩ := hdeg
  rw [ofBits_zero]
  show ∃ q : ℝ, Scalar.select (BitVec.ofBool (decide (((0 : ℝ) : EReal) < (r : EReal)))) _ _ = (q : EReal)
  by_cases hr : 0 < r
  · have h1 : ((0 : ℝ) : EReal) < (r : EReal) := EReal.coe_lt_coe_iff.mpr hr
    refine ⟨(Real.sqrt r)⁻¹, ?_⟩
    rw [decide_eq_true h1]
    show Scalar.select 1#1 _ _ = _
    rw [select_one, Ideal.rsqrt_coe, if_neg (not_lt.mpr hr.le), if_neg hr.ne']
  · have h1 : ¬ ((0 : ℝ) : EReal) < (r : EReal) := fun h => hr (EReal.coe_lt_coe_iff.mp h)
    refine ⟨0, ?_⟩
    rw [decide_eq_false h1]
    show Scalar.select 0#1 _ _ = _
    rw [select_zero]

/-- The same at the host's accumulating scatter of float arrays, for any shapes: it is that exact sum. -/
theorem scatterAdd_real {s si su : Shape} {w : Nat} (d : ScatterDims s si su) (x : FVec Ideal s .f32)
    (idx : IVec si w) (upd : FVec Ideal su .f32) (hx : ∀ i, ∃ r : ℝ, x i = (r : EReal))
    (hu : ∀ j, ∃ r : ℝ, upd j = (r : EReal)) (i : s.Idx) :
    ∃ r : ℝ, Host.scatterAdd (F := Ideal) d x idx upd i = (r : EReal) :=
  hostScatterAdd_real d x idx upd hx hu i

/-- A node's degree — the scatter-add of ones into zeros — is a real number. -/
theorem deg_real (x1 : (⟨S2x1600000, .i32⟩ : BufTy).Contents (Elt Ideal)) (i : S100000.Idx) :
    ∃ r : ℝ, val_main_v10 (F := Ideal) x1 i = (r : EReal) := by
  have hx : ∀ k, ∃ r : ℝ, val_main_v8 (F := Ideal) k = (r : EReal) := fun k =>
    ⟨0, by rw [val_main_v8_apply, val_main_cst_0_apply]; exact ofBits_zero⟩
  have hu : ∀ j, ∃ r : ℝ, val_main_v7 (F := Ideal) j = (r : EReal) := fun j =>
    ⟨1, by rw [val_main_v7_apply, val_main_cst_apply]; exact ofBits_one⟩
  unfold val_main_v10
  generalize val_main_v8 (F := Ideal) = a at hx ⊢
  generalize val_main_v7 (F := Ideal) = u at hu ⊢
  generalize val_main_v9 (F := Ideal) x1 = ix
  exact scatterAdd_real _ a ix u hx hu i

/-- A node's inverse square-root degree is a real number: the select, on `degree > 0`, between the inverse square root
    of the (real) degree and the literal zero. -/
theorem dinvRow_real (x1 : (⟨S2x1600000, .i32⟩ : BufTy).Contents (Elt Ideal)) (n : Fin 100000) :
    ∃ r : ℝ, Graph.dinvRow x1 n = (r : EReal) := by
  have hdeg := deg_real x1 (ix1 n)
  unfold Graph.dinvRow
  rw [val_main_v14_apply, val_main_v12_apply, val_main_v13_apply, val_main_call0_v1_apply, val_main_call0_v0_apply,
    val_main_cst_2_apply, val_main_v11_apply, val_main_cst_1_apply]
  generalize val_main_v10 (F := Ideal) x1 (ix1 n) = deg at hdeg ⊢
  exact select_rsqrt_real deg hdeg

end Cert.Finite

end
-- ==== Proof.lean ====
/-
  One graph-convolution layer with two layer normalisations: the tiled kernel program against its array-level
  reference, on the extended reals.

  Both programs read the graph off the edge-index argument in the same way (self-loops appended; a message is gathered
  at the source word shifted, read signed and clamped, and lands at the destination word read signed and not
  clamped) and give every node the inverse square root of its in-degree. The kernel scales the rows of `x` by the
  source factor, aggregates them over the edges, scales by the destination factor, and only then multiplies by the
  transposed weight; the reference multiplies first and scales each message by the product of the two factors. Entry
  by entry both linear parts are the double sum, over the edges landing on the node and the 128 input channels, of
  `x[src e, k] · W[c, k] · dinv (src e) · dinv n`; they agree by distributivity and exchanging the two finite sums, which
  on the extended reals needs every factor finite: `x` and `W` by the precondition, the factors because a degree
  is a finite count. After the linear part both apply the same row-wise tail (bias, `max · 0`, layer normalisation,
  residual, layer normalisation), so the two results are one function of the arguments.

  The three programs terminate without fault and keep their arguments: the two kernel programs by their frames over
  the two tiled regions, the reference by its run. The idealization rewrote no operation, so it has nothing to
  preserve beyond the program's own text.
-/
import proofs.«163821_j32736240730563_2_alg».proof.Defs
import proofs.«163821_j32736240730563_2_alg».proof.Proof.Gen.Kernel
import proofs.«163821_j32736240730563_2_alg».proof.Proof.Gen.Kernel.Skeleton
import proofs.«163821_j32736240730563_2_alg».proof.Proof.Gen.Kernel.Launch
import proofs.«163821_j32736240730563_2_alg».proof.Proof.Gen.Kernel.Points
import proofs.«163821_j32736240730563_2_alg».proof.Proof.Gen.Kernel.Frame
import proofs.«163821_j32736240730563_2_alg».proof.Proof.Gen.KernelIdeal
import proofs.«163821_j32736240730563_2_alg».proof.Proof.Gen.KernelIdeal.Skeleton
import proofs.«163821_j32736240730563_2_alg».proof.Proof.Gen.KernelIdeal.Launch
import proofs.«163821_j32736240730563_2_alg».proof.Proof.Gen.KernelIdeal.Points
import proofs.«163821_j32736240730563_2_alg».proof.Proof.Gen.KernelIdeal.Frame
import proofs.«163821_j32736240730563_2_alg».proof.Proof.Gen.ReferenceIdeal
import proofs.«163821_j32736240730563_2_alg».proof.Proof.RefRun
import proofs.«163821_j32736240730563_2_alg».proof.Proof.RefRead
import proofs.«163821_j32736240730563_2_alg».proof.Proof.Gen.Pre_finite_inputs
import proofs.«163821_j32736240730563_2_alg».proof.Proof.KernelValue
import proofs.«163821_j32736240730563_2_alg».proof.Proof.RefValue
import proofs.«163821_j32736240730563_2_alg».proof.Proof.Finite
import proofs.«163821_j32736240730563_2_alg».proof.Proof.FiniteDinv
import Idealize.ShloMosaic.Adequacy
import Idealize.ShloMosaic.Init

noncomputable section

namespace Cert.Proof

open Idealize.ShloMosaic Idealize.SL.Sem

/-- The word-level kernel program terminates without fault and keeps its arguments. -/
theorem frame_k [Cert.Kernel.Facts] [Cert.Pre_finite_inputs.Facts] : Cert.frame_Kernel :=
  fun m ρ _ => Cert.Kernel.Gen.frame m ρ

/-- So does the idealized kernel program. -/
theorem frame_ki [Cert.KernelIdeal.Facts] [Cert.Pre_finite_inputs.Facts] : Cert.frame_KernelIdeal :=
  fun m ρ _ => Cert.KernelIdeal.Gen.frame m ρ

/-- So does the idealized reference: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments, under the precondition, both idealized programs end with the layer's
    output of the arguments: the kernel in the arrangement "scale, aggregate, transform", equal to the reference's
    "transform, scale and aggregate" because `x`, the weight and the nodes' factors are finite. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Layer.layerR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.KernelIdeal.Hand.run_result m ρ)
    rw [Cert.KernelIdeal.Hand.result_eq, Cert.KernelIdeal.Hand.fused_eq_layerK]
    obtain ⟨hx, hW⟩ := Cert.Finite.real_of_pre _ _ _ _ _ _ _ _ (hpre c)
    exact Cert.Layer.layerK_eq_layerR _ _ _ _ _ _ _ _ hx hW (Cert.Finite.dinvRow_real _)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, Cert.ReferenceIdeal.RefValue.ref_eq_layerR,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
